-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 256]⟩ ⟨2, ![512, 512]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x512 : Shape := ⟨2, ![256, 512]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel

variable [Facts]

def fn {F : FTy → Type} [FloatOps F] (main_arg0 : FVec F S256x512 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  main_v3
-- ==== Pre_finite_inputs_ReferenceIdeal.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Kernel.lean ====
abbrev S256x512 : Shape := ⟨2, ![256, 512]⟩
abbrev S512x256 : Shape := ⟨2, ![512, 256]⟩
abbrev S256x256 : Shape := ⟨2, ![256, 256]⟩
abbrev S_ : Shape := ⟨0, ![]⟩

abbrev nBuf : Space → Nat
  | .hbm => 2
  | .vmem => 3
  | .smem => 0
  | _ => 0

abbrev bufTy : (tb : Table) → Fin (tcTables nBuf tb) → BufTy
  | .hbm, ⟨0, _⟩ => ⟨S256x512, .f32⟩
  | .hbm, ⟨1, _⟩ => ⟨S512x256, .bf16⟩
  | .local _ .vmem, ⟨0, _⟩ => ⟨S256x512, .f32⟩
  | .local _ .vmem, ⟨1, _⟩ => ⟨S512x256, .bf16⟩
  | .local _ .vmem, ⟨2, _⟩ => ⟨S256x256, .bf16⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  { ofTc nBuf bufTy 1 4 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_8 : BitVec 32 := 1#32
  let v16 : BitVec 32 := Scalar.muli v9 c1_i32_8
  let v17 : BitVec 32 := Scalar.addi v15 v16
  v17.toNat
def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v23 : BitVec 32 := Scalar.muli v8 c256_i32
  let c0_i32_17 : BitVec 32 := 0#32
  ![v23.toNat, 0]
def k0_dev2 (d0 : Dev nD) : Nat :=
  let c0_i32_14 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_13 : BitVec 32 := 4#32
  let v24 : BitVec 32 := Scalar.muli v2 c4_i32_13
  let v25 : BitVec 32 := Scalar.addi c0_i32_14 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v26 : BitVec 32 := Scalar.muli v5 c2_i32_15
  let v27 : BitVec 32 := Scalar.addi v25 v26
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_16 : BitVec 32 := 1#32
  let v28 : BitVec 32 := Scalar.muli v9 c1_i32_16
  let v29 : BitVec 32 := Scalar.addi v27 v28
  v29.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S256x512_S256x256_0_256 : ∀ a, (![0, 256] : Fin 2 → Nat) a + S256x256.size a ≤ S256x512.size a
  h_S256x256 : 0 < S256x256.numel
  shapeCasts_S256x256_S256x256 : S256x256.ShapeCasts S256x256
  bitsLt_bf16_f32 : FTy.bits .bf16 < FTy.bits .f32
  inb_S256x256_S256x256_0_0 : ∀ a, (![0, 0] : Fin 2 → Nat) a + S256x256.size a ≤ S256x256.size a
  packedbf16_S256x256_S256x256_0_0 : (Rect.unit (s := S256x256) ![0, 0] S256x256.size inb_S256x256_S256x256_0_0).PackedRows (EltTy.packing .bf16)
  inb_S256x512_S256x256_0_0 : ∀ a, (![0, 0] : Fin 2 → Nat) a + S256x256.size a ≤ S256x512.size a
  inb_S512x256_S256x256_0_0 : ∀ a, (![0, 0] : Fin 2 → Nat) a + S256x256.size a ≤ S512x256.size a
  packedbf16_S512x256_S256x256_0_0 : (Rect.unit (s := S512x256) ![0, 0] S256x256.size inb_S512x256_S256x256_0_0).PackedRows (EltTy.packing .bf16)
  inb_S512x256_S256x256_256_0 : ∀ a, (![256, 0] : Fin 2 → Nat) a + S256x256.size a ≤ S512x256.size a
  packedbf16_S512x256_S256x256_256_0 : (Rect.unit (s := S512x256) ![256, 0] S256x256.size inb_S512x256_S256x256_256_0).PackedRows (EltTy.packing .bf16)
  hcc0_scratch1 : 2 + S_.numel ≤ 4
  hcc0_scratch2 : 3 + S_.numel ≤ 4
  k0_dev1_lt : ∀ d0 : Dev nD, (k0_dev1 d0) < nD
  k0_off1_inb : ∀ d0 : Dev nD, ∀ a, (k0_off1 d0) a + S256x256.size a ≤ S512x256.size a
  k0_off1_wordsbf16 : ∀ d0 : Dev nD, (Rect.unit (s := S512x256) (k0_off1 d0) S256x256.size (k0_off1_inb d0)).WholeWords (EltTy.packing .bf16)
  k0_dev2_lt : ∀ d0 : Dev nD, (k0_dev2 d0) < nD
  hstage0_0 : ∀ j, (stage0_0 j).IsWhole
  hstage0_1 : ∀ j, (stage0_1 j).IsWhole

variable [Facts₀]

abbrev cc0_scratch1 : DmaSems sig S_ := SemArray.consecutive 2 S_ hcc0_scratch1
abbrev cc0_scratch2 : DmaSems sig S_ := SemArray.consecutive 3 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x512 : Shape := ⟨2, ![512, 512]⟩

abbrev nBuf : Space → Nat
  | .hbm => 2
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .bf16⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Kernel.Proto.lean ====
/-
  The all-to-all along the mesh axis z, one device's protocol.

  Device `c` holds rows [256 z, 256 z + 256) of the whole 512 x 512 array (z the low bit of `c`) and must end
  holding columns [256 z, 256 z + 256) of it, as a 512 x 256 array.  Its partner `pt c` is the device with the other
  z and the same x, y.  Half of what `c` must hold it already has: rows [256 z, 256 z + 256) of its result are
  columns [256 z, 256 z + 256) of its own block.  The other half, rows [256 (1 - z), 256 (1 - z) + 256), are the
  same columns of the partner's block; the partner rounds them into its scratch buffer and copies that buffer into
  those rows of `c`'s result.

  Three semaphore cells per device, one round each, one duty each:
  * the barrier cell: the partner signals one unit, handing over the rows of ITS result buffer that `c` is about to
    write into (so a copy cannot land in a buffer its owner has not yet entered the kernel with), and the fact that
    the partner has reached round 0 of its receive cell;
  * the receive cell: the partner's copy pays the block's credit, handing back those rows of `c`'s result holding
    the partner's scratch buffer;
  * the send cell: `c`'s own copy pays the block's credit once the scratch buffer has been read, handing it back.
  A device waits on its barrier cell while it still owes the partner's receive cell: barrier cells sit at level 1,
  receive cells at level 2, everything else at level 0.
-/
import proofs.«900336_g7700000000000337_dist_a2a_v7x_xyz2x2x2_z_m256_n256_bf16_1_alg».proof.Proof.Gen.Kernel.Frame
import proofs.«900336_g7700000000000337_dist_a2a_v7x_xyz2x2x2_z_m256_n256_bf16_1_alg».proof.Proof.Gen.Kernel.Skeleton
import Idealize.ShloMosaic.Lib.Pipeline.Launch
import Idealize.ShloMosaic.Lib.Pipeline.Kit
import Idealize.ShloMosaic.Lib.Pipeline.Value
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own cells beside the protocol's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The partner: the device with the other z -/

def pt (c : Dev nD) : Dev nD :=
  ⟨(4 * (c.val / 4) + 2 * ((c.val / 2) % 2) + 1) - (c.val % 2), by have h : c.val < 8 := c.isLt; show _ < 8; omega⟩

theorem pt_pt (c : Dev nD) : pt (pt c) = c := by revert c; decide
theorem pt_ne (c : Dev nD) : pt c ≠ c := by revert c; decide
theorem pt_bit (c : Dev nD) : (pt c).val % 2 = 1 - c.val % 2 := by revert c; decide

/-- The printed device chains: the signal and the copy both name the partner. -/
theorem dev1_eq (c : Dev nD) : (⟨k0_dev1 c, k0_dev1_lt c⟩ : Dev nD) = pt c := Fin.ext (k0_dev1_eq c)
theorem dev2_eq (c : Dev nD) : (⟨k0_dev2 c, k0_dev2_lt c⟩ : Dev nD) = pt c := Fin.ext (k0_dev2_eq c)

def swap : Dev nD ≃ Dev nD := ⟨pt, pt, pt_pt, pt_pt⟩

/-! ## Memrefs, zones and cells -/

abbrev xM : Memref sig .tc .vmem S256x512 .f32 := Memref.whole cc0_stg0_0
abbrev oM : Memref sig .tc .vmem S512x256 .bf16 := Memref.whole cc0_stg1_0
abbrev cM : Memref sig .tc .vmem S256x256 .bf16 := Memref.whole cc0_scratch0

/-- The rows of a result buffer that belong to device `c`'s block of the input: [256 z, 256 z + 256), all columns.
    Device `c` stores them in its own result buffer and copies into them in its partner's. -/
abbrev zone (c : Dev nD) : Rect S512x256 := Rect.unit (s := S512x256) (k0_off1 c) S256x256.size (k0_off1_inb c)

/-- The slice of a result buffer at `c`'s zone, as the copy names it. -/
abbrev zM (c : Dev nD) : Memref sig .tc .vmem S256x256 .bf16 := oM.slice (zone c) (fun _ => rfl)

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one 256 x 256 block of the result buffer. -/
abbrev N : ℕ := (cM : Memref sig .tc .vmem S256x256 .bf16).view.dmaCredit
theorem N_pos : 0 < N := View.dmaCredit_pos _ (by decide)

/-! ## Contents -/

/-- Device `c`'s block of the input as the kernel body finds it in the input's staging buffer. -/
def xstg (c : Dev nD) : (cc0_stg0_0 : Ref sig .tc).ty.Contents (Elt F) := Gen.iblk m c 0 Gen.t0_0

/-- The left and the right half of the block's columns. -/
abbrev rL : Rect S256x512 := Rect.unit (s := S256x512) ![0, 0] S256x256.size inb_S256x512_S256x256_0_0
abbrev rR : Rect S256x512 := Rect.unit (s := S256x512) ![0, 256] S256x256.size inb_S256x512_S256x256_0_256

def xL (c : Dev nD) : Vec F S256x256 .f32 := (xM : Memref sig .tc .vmem S256x512 .f32).view.readAt (Elt F) rL.toLoadRect (xstg m c)
def xR (c : Dev nD) : Vec F S256x256 .f32 := (xM : Memref sig .tc .vmem S256x512 .f32).view.readAt (Elt F) rR.toLoadRect (xstg m c)

/-- What `c` puts in its scratch buffer: the columns of its block that its PARTNER must end holding, rounded. -/
def commval (c : Dev nD) : (cc0_scratch0 : Ref sig .tc).ty.Contents (Elt F) :=
  if c.val % 2 = 0 then k0_pay1 (xR m c) else k0_pay3 (xL m c)

/-- What `c` stores in its own zone of its result buffer: the columns of its block that it must itself end holding. -/
def ownval (c : Dev nD) : FVec F S256x256 .bf16 :=
  if c.val % 2 = 0 then k0_pay2 (xL m c) else k0_pay4 (xR m c)

/-! ## What is owned -/

/-- The scratch buffer of device `c`, whole. -/
def commPts (c : Dev nD) (f : Buf (Elt F) ((cM : Memref sig .tc .vmem S256x256 .bf16).view.loc (c : Thread nD τ))) : sProp 𝕄 :=
  (cM : Memref sig .tc .vmem S256x256 .bf16).view.loc (c : Thread nD τ) ↦[(cM : Memref sig .tc .vmem S256x256 .bf16).view.set]{fullShare} f

/-- The zone of device `s` (the rows of its block) in the result buffer of device `d`. -/
def zonePts (d s : Dev nD) (f : Buf (Elt F) ((zM s).view.loc (d : Thread nD τ))) : sProp 𝕄 :=
  (zM s).view.loc (d : Thread nD τ) ↦[(zM s).view.set]{fullShare} f

instance commPts_storable (c : Dev nD) (f) : BI.Storable (upEmb : UEmb _ 𝕄) (commPts (F := F) c f) := by unfold commPts; infer_instance
instance zonePts_storable (d s : Dev nD) (f) : BI.Storable (upEmb : UEmb _ 𝕄) (zonePts (F := F) d s f) := by unfold zonePts; infer_instance

theorem comm_set : (cM : Memref sig .tc .vmem S256x256 .bf16).view.set = Finset.univ := View.set_whole _
theorem commPts_eq (c : Dev nD) (f : Buf (Elt F) ((c : Thread nD τ).loc cc0_scratch0)) :
    commPts c f = (((c : Thread nD τ).loc cc0_scratch0) ↦{fullShare} f : sProp 𝕄) := by unfold commPts; rw [comm_set]

/-! ## The schedule -/

/-- What the partner's signal hands `c`: `c`'s zone in the PARTNER's result buffer, at whatever it holds, and that the
    partner has reached round 0 of its receive cell. -/
def barPay (c : Dev nD) : sProp 𝕄 := iprop((∃ f, zonePts (pt c) c f) ∗ reached ER (recvCell (pt c)) 0)
/-- What the partner's copy hands `c`: the partner's zone in `c`'s result buffer, reading as the partner's scratch buffer. -/
def recvPay (c : Dev nD) : sProp 𝕄 :=
  iprop(∃ f, ⌜(zM (pt c)).view.read (Elt F) f = commval m (pt c)⌝ ∗ zonePts c (pt c) f)
/-- What `c`'s own copy hands back once its source is read: its scratch buffer, unchanged. -/
def sendPay (c : Dev nD) : sProp 𝕄 := commPts c (commval m c)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, round 0, one duty per cell: a barrier cell one unit from the partner's signal, a send or a receive cell
    the block's credit from a copy. -/
def sched : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m).duties (barCell c) 0 = {()} := by dsimp only [sched]; exact if_pos ⟨rfl, .inl ⟨rfl, rfl⟩⟩
theorem duties_send : (sched (F := F) m).duties (sendCell c) 0 = {()} := by dsimp only [sched]; exact if_pos ⟨rfl, .inr ⟨rfl, .inl rfl⟩⟩
theorem duties_recv : (sched (F := F) m).duties (recvCell c) 0 = {()} := by dsimp only [sched]; exact if_pos ⟨rfl, .inr ⟨rfl, .inr rfl⟩⟩
theorem duties_later (g : GSem nD τ sig) : ∀ r, 1 ≤ r → (sched (F := F) m).duties g r = ∅ :=
  fun r hr => by dsimp only [sched]; rw [if_neg fun h => by omega]

theorem amount_bar (d : Unit) : (sched (F := F) m).amount (barCell c) 0 d = 1 := by dsimp only [sched]; exact if_pos rfl
theorem amount_send (d : Unit) : (sched (F := F) m).amount (sendCell c) 0 d = N := by dsimp only [sched]; exact if_neg send_ne_bar
theorem amount_recv (d : Unit) : (sched (F := F) m).amount (recvCell c) 0 d = N := by dsimp only [sched]; exact if_neg recv_ne_bar

theorem expect_bar : (sched (F := F) m).expect (barCell c) 0 = 1 := by
  unfold Schedule.expect Schedule.amountOf; rw [duties_bar, Finset.sum_singleton, amount_bar]
theorem expect_send : (sched (F := F) m).expect (sendCell c) 0 = N := by
  unfold Schedule.expect Schedule.amountOf; rw [duties_send, Finset.sum_singleton, amount_send]
theorem expect_recv : (sched (F := F) m).expect (recvCell c) 0 = N := by
  unfold Schedule.expect Schedule.amountOf; rw [duties_recv, Finset.sum_singleton, amount_recv]

theorem payload_bar (d : Unit) : (sched (F := F) m).payload (barCell c) 0 d = barPay c := by dsimp only [sched]; rw [if_pos rfl]
theorem payload_send (d : Unit) : (sched (F := F) m).payload (sendCell c) 0 d = sendPay m c := by
  dsimp only [sched]; rw [if_neg send_ne_bar, if_neg send_ne_recv, if_pos rfl]
theorem payload_recv (d : Unit) : (sched (F := F) m).payload (recvCell c) 0 d = recvPay m c := by
  dsimp only [sched]; rw [if_neg recv_ne_bar, if_pos rfl]

theorem rest_bar : bigSep ((sched (F := F) m).duties (barCell c) 0 \ ∅) (fun d => (sched (F := F) m).payload (barCell c) 0 d) = barPay c := by
  rw [Finset.sdiff_empty, duties_bar, bigSep_singleton, payload_bar]
theorem rest_send : bigSep ((sched (F := F) m).duties (sendCell c) 0 \ ∅) (fun d => (sched (F := F) m).payload (sendCell c) 0 d) = sendPay m c := by
  rw [Finset.sdiff_empty, duties_send, bigSep_singleton, payload_send]
theorem rest_recv : bigSep ((sched (F := F) m).duties (recvCell c) 0 \ ∅) (fun d => (sched (F := F) m).payload (recvCell c) 0 d) = recvPay m c := by
  rw [Finset.sdiff_empty, duties_recv, bigSep_singleton, payload_recv]

end Sched

/-! ## What each device owes at launch; the levels -/

/-- Device `c` owes its partner's receive cell the block's credit and its partner's barrier cell one unit; the signal
    comes first and peels the last summand. -/
def O₀ (c : Dev nD) : CellTallies nD τ sig Unit := tallyAt (recvCell (pt c)) () N + tallyAt (barCell (pt c)) () 1

def L (g : GSem nD τ sig) : Finset Unit := if g.1.2 = .tc then {()} else ∅
/-- Barrier cells at 1, receive cells at 2, everything else (the staging cells, the send cells) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (pt c) ∨ g = barCell (pt c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

/-- A wait on a staging cell or on the send cell (level 0) is allowed whatever of `O₀` is still owed. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its barrier wait a device owes its partner's receive credit only: a receive cell, above its barrier cell. -/
theorem mayWait_bar (c : Dev nD) :
    (levAts L lv : sProp 𝕄) ⊢ MayWait (c : Thread nD τ) (.reg barS) () (tallyAt (recvCell (pt c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (pt c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (pt c) ∧ u = ()
      · rw [h.1]; dsimp only [lv]; rw [if_neg recv_ne_bar, if_pos rfl]; decide
      · rw [if_neg h] at hg; exact absurd hg (Nat.lt_irrefl 0))

/-! ## The two zones of a result buffer

Rows [0, 256) and rows [256, 512): disjoint, and together the whole buffer.  A device's own zone is the one its
z names, its partner's the other. -/

abbrev Z0 : Rect S512x256 := Rect.unit (s := S512x256) ![0, 0] S256x256.size inb_S512x256_S256x256_0_0
abbrev Z1 : Rect S512x256 := Rect.unit (s := S512x256) ![256, 0] S256x256.size inb_S512x256_S256x256_256_0

theorem mem_Z0 (i : S512x256.Idx) : i ∈ Z0.set ↔ (i 0).val < 256 := by
  have h0 : (i 0).val < 512 := (i 0).isLt
  have h1 : (i 1).val < 256 := (i 1).isLt
  rw [Rect.mem_set_unit, Fin.forall_fin_two]
  show (0 ≤ (i 0).val ∧ (i 0).val < 0 + 256) ∧ (0 ≤ (i 1).val ∧ (i 1).val < 0 + 256) ↔ _
  omega

theorem mem_Z1 (i : S512x256.Idx) : i ∈ Z1.set ↔ 256 ≤ (i 0).val := by
  have h0 : (i 0).val < 512 := (i 0).isLt
  have h1 : (i 1).val < 256 := (i 1).isLt
  rw [Rect.mem_set_unit, Fin.forall_fin_two]
  show (256 ≤ (i 0).val ∧ (i 0).val < 256 + 256) ∧ (0 ≤ (i 1).val ∧ (i 1).val < 0 + 256) ↔ _
  omega

theorem compl_Z1 : Finset.univ \ Z1.set = Z0.set := by
  ext i
  rw [Finset.mem_sdiff, mem_Z0, mem_Z1]
  simp only [Finset.mem_univ, true_and]
  omega

theorem compl_Z0 : Finset.univ \ Z0.set = Z1.set := by
  ext i
  rw [Finset.mem_sdiff, mem_Z0, mem_Z1]
  simp only [Finset.mem_univ, true_and]
  omega

theorem off_even (c : Dev nD) (h : c.val % 2 = 0) : k0_off1 c = ![0, 0] := by
  have e := k0_off1_eq c; rw [h] at e; exact e
theorem off_odd (c : Dev nD) (h : c.val % 2 = 1) : k0_off1 c = ![256, 0] := by
  have e := k0_off1_eq c; rw [h] at e; exact e

theorem zone_even (c : Dev nD) (h : c.val % 2 = 0) : zone c = Z0 := Rect.unit_congr (off_even c h) _ _
theorem zone_odd (c : Dev nD) (h : c.val % 2 = 1) : zone c = Z1 := Rect.unit_congr (off_odd c h) _ _
theorem zone_pt_even (c : Dev nD) (h : c.val % 2 = 0) : zone (pt c) = Z1 := zone_odd (pt c) (by have := pt_bit c; omega)
theorem zone_pt_odd (c : Dev nD) (h : c.val % 2 = 1) : zone (pt c) = Z0 := zone_even (pt c) (by have := pt_bit c; omega)

/-- What is left of a device's result buffer once its partner's zone is taken out is its own zone. -/
theorem zone_compl (c : Dev nD) : Finset.univ \ (zone (pt c)).set = (zone c).set := by
  rcases Nat.mod_two_eq_zero_or_one c.val with h | h
  · rw [zone_even c h, zone_pt_even c h]; exact compl_Z1
  · rw [zone_odd c h, zone_pt_odd c h]; exact compl_Z0

/-- The elements of a result buffer under the slice at a device's zone are the zone's. -/
theorem zM_set (s : Dev nD) : (zM s).view.set = (zone s).set := View.set_slice_whole cc0_stg1_0 (zone s)

end Cert.KernelProof

end
-- ==== Proof.LibView.lean ====
/-
  Two facts about a view of a buffer, over any view.

  * Two contents of the buffer that READ the same through a view agree at every element of the buffer under the
    view (the converse of reading being a function of those elements only).
  * What a write of a whole vector through a view leaves at the elements under the view does not depend on what
    the buffer held before.
  With them a buffer put together from pieces written through disjoint views is compared with a stated contents
  element by element, by membership in the views' element sets alone, no coordinate of an element ever named.
-/
import Idealize.ShloMosaic.Signature.View

namespace Cert.LibView

open Idealize.ShloMosaic Idealize.ShloMosaic.View

variable {sig : RefSig} {κ : Kind} {sp : Space} {s : Shape} {e : EltTy} {Val : EltTy → Type}
variable (v : View sig κ sp s e)

/-- Contents that read the same through a view agree under it. -/
theorem eqOn_of_read_eq {f g : v.ty.Contents Val} (h : v.read Val f = v.read Val g) : ∀ i ∈ v.set, f i = g i := by
  intro i hi
  obtain ⟨x, -, rfl⟩ := Finset.mem_map.mp hi
  have hx := congrFun h x
  rw [View.read_apply, View.read_apply] at hx
  exact (cast_inj _).mp hx

/-- Under the view, a whole write leaves the vector written, whatever was there. -/
theorem write_univ_eqOn (f g : v.ty.Contents Val) (w : s.Idx → Val e) :
    ∀ i ∈ v.set, v.write Val f w Finset.univ i = v.write Val g w Finset.univ i :=
  eqOn_of_read_eq v (by rw [View.read_write_univ, View.read_write_univ])

end Cert.LibView
-- ==== Proof.Kernel.Body.lean ====
/-
  One device's kernel body, stepped from the protocol's invariant.

  What device `c`'s result buffer ends holding is put together from two pieces that never overlap: its own zone,
  which it stores itself (the columns of its block that it keeps, rounded), and its partner's zone, which the
  partner's copy fills (the same columns of the partner's block, rounded by the partner).  The body starts owning its
  result buffer whole.  It first takes the partner's zone out and hands it to the partner with its signal; stores
  its scratch buffer and its own zone; waits for the partner's signal, which brings the partner's buffer's zone
  to copy into; copies; waits for the partner's copy, which brings the partner's zone of its own buffer back,
  filled; waits for its own copy to have read the scratch buffer; and puts the two zones together again.
-/
import proofs.«900336_g7700000000000337_dist_a2a_v7x_xyz2x2x2_z_m256_n256_bf16_1_alg».proof.Proof.Kernel.Proto
import proofs.«900336_g7700000000000337_dist_a2a_v7x_xyz2x2x2_z_m256_n256_bf16_1_alg».proof.Proof.LibView

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The one grid point -/

theorem cfg0_N : cfg0.N = 1 := Gen.N_0
abbrev t₀ : Fin cfg0.N := Gen.t0_0
theorem fin_N (t : Fin cfg0.N) : t = t₀ := Gen.fin_N0 t

/-! ## What the result buffer ends holding -/

/-- Device `c`'s result: its own zone holding what it keeps of its block, its partner's zone holding what the partner
    sent (the contents elsewhere do not matter: the two zones are the whole buffer). -/
def outAt (c : Dev nD) : (cc0_stg1_0 : Ref sig .tc).ty.Contents (Elt F) :=
  (zM (pt c)).view.write (Elt F)
    ((zM c).view.write (Elt F) (fun _ => Classical.arbitrary _) (ownval m c) Finset.univ)
    (commval m (pt c)) Finset.univ

/-- Read through the partner's zone, the result is what the partner sent. -/
theorem read_outAt_pt (c : Dev nD) : (zM (pt c)).view.read (Elt F) (outAt m c) = commval m (pt c) := by
  unfold outAt; exact View.read_write_univ _ _

/-- A device's own zone and its partner's share no element. -/
theorem zones_disjoint (c : Dev nD) : Disjoint (zM c).view.set ((zM (pt c)).view.setOn Finset.univ) := by
  rw [View.setOn_univ, zM_set, zM_set, ← zone_compl c]; exact Finset.sdiff_disjoint

/-- On the partner's zone, contents that read as the partner's scratch buffer through it are the result. -/
theorem land_eqOn (c : Dev nD) (fL : (cc0_stg1_0 : Ref sig .tc).ty.Contents (Elt F))
    (hL : (zM (pt c)).view.read (Elt F) fL = commval m (pt c)) : ∀ i ∈ (zM (pt c)).view.set, fL i = outAt m c i :=
  Cert.LibView.eqOn_of_read_eq (zM (pt c)).view (hL.trans (read_outAt_pt m c).symm)

/-- On the own zone, what storing the own piece left of any contents is the result. -/
theorem own_eqOn (c : Dev nD) (g : (cc0_stg1_0 : Ref sig .tc).ty.Contents (Elt F)) :
    ∀ i ∈ (zM c).view.set, (zM c).view.write (Elt F) g (ownval m c) Finset.univ i = outAt m c i := by
  intro i hi
  unfold outAt
  rw [View.write_of_not_mem _ _ _ (Finset.disjoint_left.mp (zones_disjoint c) hi)]
  exact Cert.LibView.write_univ_eqOn (zM c).view _ _ _ i hi

/-! ## The ghost state a device starts from, and the proof data -/

/-- The cells' invariants device `c`'s body opens, at the names `K` the launch allocated them at: its own three, its
    partner's barrier cell (its signal) and its partner's receive cell (its copy). -/
def invs (K : Dev nD × Fin 3 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (pt c, 0)) (barCell (pt c)) ∗ cellInv ER (sched m) (K (pt c, 2)) (recvCell (pt c)))

instance invs_persistent (K : Dev nD × Fin 3 → ℕ) (c : Dev nD) : BI.Persistent (invs m K c) := by unfold invs; infer_instance

/-- The protocol's ghost state device `c` starts from: the invariants; its positions at round 0 of its three cells; that
    round 0 is reached of the two cells it pays and of its own send and receive cells; the three duty tokens it pays
    with — its partner's barrier duty, its partner's receive duty, its own send duty. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (pt c)) 0 ∗ reached ER (recvCell (pt c)) 0 ∗ reached ER (sendCell c) 0 ∗ reached ER (recvCell c) 0
    ∗ dutyTok ER (barCell (pt c)) 0 () ∗ dutyTok ER (recvCell (pt c)) 0 () ∗ dutyTok ER (sendCell c) 0 ())

/-- What device `c`'s body starts from: that, at some names; the credit of its barrier cell (one unit) and of its receive
    cell (the block's); the levels. -/
def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ ∃ f, commPts c f)
/-- After the point: the scratch buffer back, the two own cells at zero and closed (the barrier cell is the runtime's:
    nothing to hand back). -/
def Φ₁ (c : Dev nD) : sProp 𝕄 := iprop((∃ f, commPts c f) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The input's staging buffer holds the device's block at the point, fetched there. -/
theorem before_x (c : Dev nD) (d) : (dats m 0 c).before (0 : Fin 2) t₀ d = xstg m c :=
  ((dats m 0 c).before_fetched (0 : Fin 2) t₀ (Gen.fetch0_0 t₀) d).trans (by unfold Dat.fetched Dat.blockOf xstg Gen.iblk; rfl)

/-! ## Splitting and rejoining the result buffer -/

/-- Device `c`'s own zone of its own result buffer. -/
def ownPts (c : Dev nD) (f : Buf (Elt F) ((c : Thread nD τ).loc cc0_stg1_0)) : sProp 𝕄 :=
  ((c : Thread nD τ).loc cc0_stg1_0) ↦[(zone c).set]{fullShare} f

/-- The result buffer, whole, is the partner's zone and the own zone. -/
theorem out_split (c : Dev nD) (g : Buf (Elt F) ((c : Thread nD τ).loc cc0_stg1_0)) :
    (((c : Thread nD τ).loc cc0_stg1_0) ↦{fullShare} g : sProp 𝕄) ⊢ iprop(zonePts c (pt c) g ∗ ownPts c g) := by
  unfold zonePts ownPts
  rw [zM_set, ← zone_compl c]
  exact (pointsTo_split_subset (Finset.subset_univ _)).1

/-- The two zones at one contents are the result buffer whole at it. -/
theorem out_join (c : Dev nD) (f : Buf (Elt F) ((c : Thread nD τ).loc cc0_stg1_0)) :
    iprop(zonePts c (pt c) f ∗ ownPts c f) ⊢ (((c : Thread nD τ).loc cc0_stg1_0) ↦{fullShare} f : sProp 𝕄) := by
  unfold zonePts ownPts
  rw [zM_set, ← zone_compl c]
  exact (pointsTo_split_subset (Finset.subset_univ _)).2

/-- The partner's zone, filled by the partner, holds the result there. -/
theorem land_congr (c : Dev nD) (fL : (cc0_stg1_0 : Ref sig .tc).ty.Contents (Elt F))
    (hL : (zM (pt c)).view.read (Elt F) fL = commval m (pt c)) : zonePts c (pt c) fL = zonePts c (pt c) (outAt m c) := by
  unfold zonePts; exact pointsTo_congr (land_eqOn m c fL hL)

/-- The own zone, stored, holds the result there. -/
theorem own_congr (c : Dev nD) (g : (cc0_stg1_0 : Ref sig .tc).ty.Contents (Elt F)) :
    ownPts c ((zM c).view.write (Elt F) g (ownval m c) Finset.univ) = ownPts c (outAt m c) := by
  unfold ownPts; rw [← zM_set]; exact pointsTo_congr (own_eqOn m c g)

/-- Writes through unit rectangles of one size at equal offsets are the same write. -/
theorem write_unit_congr {off off' : Fin 2 → Nat} (h : off = off') (p : ∀ a, off a + S256x256.size a ≤ S512x256.size a)
    (p' : ∀ a, off' a + S256x256.size a ≤ S512x256.size a) (g : (cc0_stg1_0 : Ref sig .tc).ty.Contents (Elt F)) (w : S256x256.Idx → Elt F .bf16) :
    ((oM : Memref sig .tc .vmem S512x256 .bf16).access (Rect.unit (s := S512x256) off S256x256.size p)).write (Elt F) g w Finset.univ
      = ((oM : Memref sig .tc .vmem S512x256 .bf16).access (Rect.unit (s := S512x256) off' S256x256.size p')).write (Elt F) g w Finset.univ := by
  subst h; rfl

/-- The own zone, through the literal rectangle the body's store names (z = 0: rows [0, 256)), and back after the store. -/
theorem own_to_rect_even (c : Dev nD) (hz : c.val % 2 = 0) (g : Buf (Elt F) ((c : Thread nD τ).loc cc0_stg1_0)) :
    ownPts c g ⊢ ((((oM : Memref sig .tc .vmem S512x256 .bf16).access Z0).loc (c : Thread nD τ)) ↦[((oM : Memref sig .tc .vmem S512x256 .bf16).access Z0).set]{fullShare} g : sProp 𝕄) := by
  unfold ownPts; rw [zone_even c hz, show ((oM : Memref sig .tc .vmem S512x256 .bf16).access Z0).set = Z0.set from View.set_slice_whole _ _]
theorem own_to_rect_odd (c : Dev nD) (hz : c.val % 2 = 1) (g : Buf (Elt F) ((c : Thread nD τ).loc cc0_stg1_0)) :
    ownPts c g ⊢ ((((oM : Memref sig .tc .vmem S512x256 .bf16).access Z1).loc (c : Thread nD τ)) ↦[((oM : Memref sig .tc .vmem S512x256 .bf16).access Z1).set]{fullShare} g : sProp 𝕄) := by
  unfold ownPts; rw [zone_odd c hz, show ((oM : Memref sig .tc .vmem S512x256 .bf16).access Z1).set = Z1.set from View.set_slice_whole _ _]

theorem rect_to_own_even (c : Dev nD) (hz : c.val % 2 = 0) (g : Buf (Elt F) ((c : Thread nD τ).loc cc0_stg1_0)) (w : S256x256.Idx → Elt F .bf16)
    (hw : w = ownval m c) :
    ((((oM : Memref sig .tc .vmem S512x256 .bf16).access Z0).loc (c : Thread nD τ)) ↦[((oM : Memref sig .tc .vmem S512x256 .bf16).access Z0).set]{fullShare}
        (((oM : Memref sig .tc .vmem S512x256 .bf16).access Z0).write (Elt F) g w Finset.univ) : sProp 𝕄)
      ⊢ ownPts c ((zM c).view.write (Elt F) g (ownval m c) Finset.univ) := by
  subst hw
  unfold ownPts
  rw [zone_even c hz, show ((oM : Memref sig .tc .vmem S512x256 .bf16).access Z0).set = Z0.set from View.set_slice_whole _ _,
    show (zM c).view.write (Elt F) g (ownval m c) Finset.univ = ((oM : Memref sig .tc .vmem S512x256 .bf16).access Z0).write (Elt F) g (ownval m c) Finset.univ from
      write_unit_congr (off_even c hz) _ _ g _]
theorem rect_to_own_odd (c : Dev nD) (hz : c.val % 2 = 1) (g : Buf (Elt F) ((c : Thread nD τ).loc cc0_stg1_0)) (w : S256x256.Idx → Elt F .bf16)
    (hw : w = ownval m c) :
    ((((oM : Memref sig .tc .vmem S512x256 .bf16).access Z1).loc (c : Thread nD τ)) ↦[((oM : Memref sig .tc .vmem S512x256 .bf16).access Z1).set]{fullShare}
        (((oM : Memref sig .tc .vmem S512x256 .bf16).access Z1).write (Elt F) g w Finset.univ) : sProp 𝕄)
      ⊢ ownPts c ((zM c).view.write (Elt F) g (ownval m c) Finset.univ) := by
  subst hw
  unfold ownPts
  rw [zone_odd c hz, show ((oM : Memref sig .tc .vmem S512x256 .bf16).access Z1).set = Z1.set from View.set_slice_whole _ _,
    show (zM c).view.write (Elt F) g (ownval m c) Finset.univ = ((oM : Memref sig .tc .vmem S512x256 .bf16).access Z1).write (Elt F) g (ownval m c) Finset.univ from
      write_unit_congr (off_odd c hz) _ _ g _]

/-- What each parity stores, by name. -/
theorem commval_even (c : Dev nD) (hz : c.val % 2 = 0) : commval m c = k0_pay1 (xR m c) := if_pos hz
theorem commval_odd (c : Dev nD) (hz : c.val % 2 = 1) : commval m c = k0_pay3 (xL m c) := if_neg (by omega)
theorem ownval_even (c : Dev nD) (hz : c.val % 2 = 0) : ownval m c = k0_pay2 (xL m c) := if_pos hz
theorem ownval_odd (c : Dev nD) (hz : c.val % 2 = 1) : ownval m c = k0_pay4 (xR m c) := if_neg (by omega)

/-- A store of the whole scratch buffer leaves what was stored. -/
theorem write_comm (f w : (cc0_scratch0 : Ref sig .tc).ty.Contents (Elt F)) :
    ((cM : Memref sig .tc .vmem S256x256 .bf16).access (Rect.unit (s := S256x256) ![0, 0] S256x256.size inb_S256x256_S256x256_0_0)).write (Elt F) f w Finset.univ = w :=
  Memref.write_access_unit_zero_univ (Elt F) cc0_scratch0 (funext fun a => by fin_cases a <;> rfl) _ f w

/-! ## The body -/

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 1) ∗ cred (tallyAt (recvCell c) () N) ∗ levAts L lv ∗ ∃ f, commPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

/-- The two conditions of the body, by the device's z. -/
theorem cond1_even : ∀ c : Dev nD, c.val % 2 = 0 →
    Scalar.cmpi .ne (Scalar.extui (Scalar.cmpi .eq (Scalar.remsi (Scalar.divsi (Dev.word c) 1#32) 2#32) 0#32)) 0#32 = 1#1 := by decide
theorem cond2_even : ∀ c : Dev nD, c.val % 2 = 0 →
    ¬ Scalar.cmpi .ne (Scalar.extui (Scalar.xori (Scalar.cmpi .eq (Scalar.remsi (Scalar.divsi (Dev.word c) 1#32) 2#32) 0#32) 1#1)) 0#32 = 1#1 := by decide
theorem cond1_odd : ∀ c : Dev nD, c.val % 2 = 1 →
    ¬ Scalar.cmpi .ne (Scalar.extui (Scalar.cmpi .eq (Scalar.remsi (Scalar.divsi (Dev.word c) 1#32) 2#32) 0#32)) 0#32 = 1#1 := by decide
theorem cond2_odd : ∀ c : Dev nD, c.val % 2 = 1 →
    Scalar.cmpi .ne (Scalar.extui (Scalar.xori (Scalar.cmpi .eq (Scalar.remsi (Scalar.divsi (Dev.word c) 1#32) 2#32) 0#32) 1#1)) 0#32 = 1#1 := by decide

/-- The barrier duty's payload at the partner's cell, leaf by leaf: this device's partner's zone of its own result buffer,
    at whatever it holds, and that this device has reached round 0 of its receive cell. -/
theorem payload_bar_pt (c : Dev nD) (d : Unit) : (sched (F := F) m).payload (barCell (pt c)) 0 d
    = iprop((∃ f, (zM (pt c)).view.loc (c : Thread nD τ) ↦[(zM (pt c)).view.set]{fullShare} f) ∗ reached ER (recvCell c) 0) := by
  rw [payload_bar]; unfold barPay zonePts; rw [pt_pt]

-- the schedule's tables, as rewriting equations: each cell's duties, amounts, expected units and the barrier duty's payload
attribute [local sl_rounds] duties_bar duties_send duties_recv amount_bar amount_send amount_recv expect_bar expect_send expect_recv
  payload_bar_pt

/-- The scratch buffer after the store, under its protocol name. -/
theorem scr_to_comm (c : Dev nD) (w : (cc0_scratch0 : Ref sig .tc).ty.Contents (Elt F)) (hw : w = commval m c) :
    ((((c : Thread nD τ).loc cc0_scratch0) ↦{fullShare} w : sProp 𝕄)) ⊢ commPts c (commval m c) := by
  subst hw; rw [commPts_eq]

/-- The copy into the partner's result buffer, at this protocol's cells: the scratch buffer lent to the send cell, the
    partner's buffer's zone rewritten and handed to the partner's receive cell.  (The printed device word `n` is the
    partner: substituted, not rewritten.) -/
theorem wp_send_pt (c n : Dev nD) (hn : n = pt c)
    {hsc : (zM c : Memref sig (Dev.tc n : Thread nD τ).2.kind .vmem S256x256 .bf16).view.ref.isScScratch = false}
    {hsrc : (cM : Memref sig .tc .vmem S256x256 .bf16).view.WordExact} {hdst : (zM c : Memref sig .tc .vmem S256x256 .bf16).view.WordExact}
    {hsem : DmaTarget.Typed .vmem (.dma recvS.sem) (.remote (Dev.tc n : Thread nD τ) (zM c : Memref sig .tc .vmem S256x256 .bf16) (.dma sendS.sem) hsc)}
    {α : Type} {Q : α → sProp 𝕄} {k : PUnit → Prog (TpuEff nD τ sig (Elt F) Λ₀ .tc) α}
    (fn : Buf (Elt F) ((zM c).view.loc (pt c : Thread nD τ))) (W : Waits sig Unit) :
    iprop(cellInv ER (sched m) (K (c, 1)) (sendCell c) ∗ cellInv ER (sched m) (K (pt c, 2)) (recvCell (pt c))
        ∗ commPts c (commval m c) ∗ zonePts (pt c) c fn
        ∗ owes (c : Thread nD τ) (tallyAt (recvCell (pt c)) () N) W
        ∗ dutyTok ER (sendCell c) 0 () ∗ reached ER (sendCell c) 0
        ∗ dutyTok ER (recvCell (pt c)) 0 () ∗ reached ER (recvCell (pt c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma cM (.remote (Dev.tc n : Thread nD τ) (zM c) (.dma sendS.sem) hsc) (.dma recvS.sem) hsrc hdst hsem) k) Q) := by
  subst hn
  unfold commPts zonePts
  exact Rounds.wp_send_pointsTo 𝒱₀ ER (sched m) (c : Thread nD τ) none (κ₁ := K (c, 1)) (κ₂ := K (pt c, 2))
    (r₁ := 0) (r₂ := 0) (d₁ := ()) (d₂ := ()) (fd := fn)
    (by rw [duties_send]; exact Finset.mem_singleton_self _) (by rw [duties_recv]; exact Finset.mem_singleton_self _)
    () () N rfl (amount_send m c ()) (amount_recv m (pt c) ()) 0 (by rw [zero_add]) (W := W)
    (by rw [payload_send]; exact BI.Entails.refl _)
    (by
      rw [payload_recv]; unfold recvPay zonePts; rw [pt_pt]
      iintro H
      iexists ((zM c).view.write (Elt F) fn ((cM : Memref sig .tc .vmem S256x256 .bf16).view.read (Elt F) (commval m c)) Finset.univ)
      isplitr
      · ipureintro; rw [View.read_write_univ]; rfl
      · iexact H)

set_option maxHeartbeats 3200000 in
/-- The body, stepped from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m c := by rw [hg0]; exact before_x m c d0
  subst hx
  unfold Dat.owesAt Pipeline.owesWithin
  icases Ho with ⟨%W, %hW, HO⟩
  rw [show (dats m 0 c).owed t₀.castSucc = O₀ c from rfl]
  simp only [dev1_eq c]
  -- the partner's zone of the result buffer is taken out: it goes with the signal
  ihave Hsp := (out_split c g1) $$ Hout
  icases Hsp with ⟨Hland, Hown⟩
  ihave Hscr := (Entails.of_eq (commPts_eq c f0)) $$ Hscr
  -- the SIGNAL to the partner's barrier cell: the partner's zone, and that this device is at round 0 of its receive cell
  -- (the duty read off its token, the payload off the schedule's tables, the unit off what the device owes)
  unfold zonePts O₀
  sl_exec
  -- the device's z decides both conditionals
  rcases Nat.mod_two_eq_zero_or_one c.val with hz | hz
  on_goal 1 =>
    simp only [cond1_even c hz, cond2_even c hz, ↓reduceDIte, Prog.bind_op, Prog.bind_ret]
    -- z = 0: the right half of the block into the scratch buffer, the left half into the own zone (rows [0, 256))
    iapply (wp_load 𝒱₀ (c : Thread nD τ) none Set.univ (m := xM) (Finset.subset_univ _)) $$ Hx; iintro Hx
    iapply (wp_load 𝒱₀ (c : Thread nD τ) none Set.univ (m := cM) (Finset.subset_univ _)) $$ Hscr; iintro Hscr
    iapply (wp_store 𝒱₀ (c : Thread nD τ) none Set.univ (m := cM) (r := Rect.unit (s := S256x256) ![0, 0] S256x256.size inb_S256x256_S256x256_0_0)
      (Mk := Finset.univ) (Finset.subset_univ _)) $$ Hscr; iintro Hscr
    rw [write_comm]
    iapply (wp_load 𝒱₀ (c : Thread nD τ) none Set.univ (m := xM) (Finset.subset_univ _)) $$ Hx; iintro Hx
    ihave Hown := (own_to_rect_even c hz g1) $$ Hown
    iapply (wp_load_rect 𝒱₀ (c : Thread nD τ) none Set.univ (m := oM) (r := Z0) (Finset.Subset.refl _)) $$ Hown; iintro Hown
    iapply (wp_store 𝒱₀ (c : Thread nD τ) none Set.univ (m := oM) (r := Z0) (Mk := Finset.univ)
      (show ((oM : Memref sig .tc .vmem S512x256 .bf16).access Z0).setOn Finset.univ ⊆ ((oM : Memref sig .tc .vmem S512x256 .bf16).access Z0).set from Finset.Subset.refl _)) $$ Hown; iintro Hown
    ihave Hown := (rect_to_own_even m c hz g1 (k0_pay2 ((xM : Memref sig .tc .vmem S256x512 .f32).view.readAt (Elt F) rL.toLoadRect (xstg m c))) (ownval_even m c hz).symm) $$ Hown
    ihave Hscr := (scr_to_comm m c (k0_pay1 ((xM : Memref sig .tc .vmem S256x512 .f32).view.readAt (Elt F) rR.toLoadRect (xstg m c))) (commval_even m c hz).symm) $$ Hscr
  on_goal 2 =>
    simp only [cond1_odd c hz, cond2_odd c hz, ↓reduceDIte, Prog.bind_op, Prog.bind_ret]
    -- z = 1: the left half of the block into the scratch buffer, the right half into the own zone (rows [256, 512))
    iapply (wp_load 𝒱₀ (c : Thread nD τ) none Set.univ (m := xM) (Finset.subset_univ _)) $$ Hx; iintro Hx
    iapply (wp_load 𝒱₀ (c : Thread nD τ) none Set.univ (m := cM) (Finset.subset_univ _)) $$ Hscr; iintro Hscr
    iapply (wp_store 𝒱₀ (c : Thread nD τ) none Set.univ (m := cM) (r := Rect.unit (s := S256x256) ![0, 0] S256x256.size inb_S256x256_S256x256_0_0)
      (Mk := Finset.univ) (Finset.subset_univ _)) $$ Hscr; iintro Hscr
    rw [write_comm]
    iapply (wp_load 𝒱₀ (c : Thread nD τ) none Set.univ (m := xM) (Finset.subset_univ _)) $$ Hx; iintro Hx
    ihave Hown := (own_to_rect_odd c hz g1) $$ Hown
    iapply (wp_load_rect 𝒱₀ (c : Thread nD τ) none Set.univ (m := oM) (r := Z1) (Finset.Subset.refl _)) $$ Hown; iintro Hown
    iapply (wp_store 𝒱₀ (c : Thread nD τ) none Set.univ (m := oM) (r := Z1) (Mk := Finset.univ)
      (show ((oM : Memref sig .tc .vmem S512x256 .bf16).access Z1).setOn Finset.univ ⊆ ((oM : Memref sig .tc .vmem S512x256 .bf16).access Z1).set from Finset.Subset.refl _)) $$ Hown; iintro Hown
    ihave Hown := (rect_to_own_odd m c hz g1 (k0_pay4 ((xM : Memref sig .tc .vmem S256x512 .f32).view.readAt (Elt F) rR.toLoadRect (xstg m c))) (ownval_odd m c hz).symm) $$ Hown
    ihave Hscr := (scr_to_comm m c (k0_pay3 ((xM : Memref sig .tc .vmem S256x512 .f32).view.readAt (Elt F) rL.toLoadRect (xstg m c))) (commval_odd m c hz).symm) $$ Hscr
  all_goals
    -- the WAIT on the own barrier cell, still owing the partner's receive credit: the partner's buffer's zone comes with it
    iapply (Rounds.wp_wait_rest_token 𝒱₀ ER (sched m) (c : Thread nD τ) none (κ := K (c, 0))
        (wpE_semWait_eq 𝒱₀ (c : Thread nD τ) none Set.univ) (Set.mem_univ _) () (O := tallyAt (recvCell (pt c)) () N) (W := W) (R := 0) (m := 0) (T := ∅)
        (by rw [expect_bar]; decide)) $$ [HcB HO HatB]
    · isplitr; · iexact HIbar
      isplitl [HcB]; · iexact HcB
      isplitl [HO]; · iexact HO
      isplitr; · iapply (mayWait_bar c); iexact Hlev
      iexact HatB
    iintro ⟨HO, HatB, -, Hpay⟩
    ihave Hp := (Entails.of_eq (rest_bar m c)) $$ Hpay
    unfold barPay
    icases Hp with ⟨⟨%fn, HzN⟩, #HrVP'⟩
    -- the COPY of the scratch buffer into the partner's buffer's zone
    iapply (wp_send_pt m K c _ (dev2_eq c) fn (insert (SemLoc.reg barS, ()) W)) $$ [Hscr HzN HO HtS HtVP]
    · isplitr; · iexact HIsnd
      isplitr; · iexact HIrcvP
      isplitl [Hscr]; · iexact Hscr
      isplitl [HzN]; · iexact HzN
      isplitl [HO]; · iexact HO
      isplitl [HtS]; · iexact HtS
      isplitr; · iexact HrS
      isplitl [HtVP]; · iexact HtVP
      iexact HrVP
    iintro ⟨HcS, HO⟩
    -- the wait on the RECEIVE cell: the partner's zone of the own buffer back, filled by the partner
    iapply (Rounds.wp_wait_rest_token 𝒱₀ ER (sched m) (c : Thread nD τ) none (κ := K (c, 2))
        (wpE_waitDma2_eq 𝒱₀ (c : Thread nD τ) none Set.univ) (Set.mem_univ _) () (O := 0) (W := insert (SemLoc.reg barS, ()) W) (R := 0) (m := 0) (T := ∅)
        (by rw [Nat.zero_add, expect_recv])) $$ [HcV HO HatV]
    · isplitr; · iexact HIrcv
      isplitl [HcV]; · iexact HcV
      isplitl [HO]; · iexact HO
      isplitr; · rw [MayWait_zero]; iempintro
      iexact HatV
    iintro ⟨HO, HatV, -, Hpay⟩
    ihave Hrp := (Entails.of_eq (rest_recv m c)) $$ Hpay
    unfold recvPay
    icases Hrp with ⟨%fL, %hfL, HzL⟩
    -- the wait on the SEND cell: the scratch buffer back
    iapply (Rounds.wp_wait_rest_token 𝒱₀ ER (sched m) (c : Thread nD τ) none (κ := K (c, 1))
        (wpE_waitDma2_eq 𝒱₀ (c : Thread nD τ) none Set.univ) (Set.mem_univ _) () (O := 0)
        (W := insert (SemLoc.dma recvS.sem, ()) (insert (SemLoc.reg barS, ()) W)) (R := 0) (m := 0) (T := ∅)
        (by rw [Nat.zero_add, expect_send])) $$ [HcS HO HatS]
    · isplitr; · iexact HIsnd
      isplitl [HcS]; · iexact HcS
      isplitl [HO]; · iexact HO
      isplitr; · rw [MayWait_zero]; iempintro
      iexact HatS
    iintro ⟨HO, HatS, -, Hpay⟩
    ihave Hscr := (Entails.of_eq (rest_send m c)) $$ Hpay
    -- the two own cells close: their counters at zero are the device's again
    imod (Rounds.cell_close ER (sched m) (Set.mem_univ (K (c, 1))) (fun h => h) (R := 0 + 1) (duties_later m (sendCell c))) $$ [HatS] with HzS
    · isplitr; · iexact HIsnd
      iexact HatS
    imod (Rounds.cell_close ER (sched m) (Set.mem_univ (K (c, 2))) (fun h => h) (R := 0 + 1) (duties_later m (recvCell c))) $$ [HatV] with HzV
    · isplitr; · iexact HIrcv
      iexact HatV
    -- the two zones hold the result each on its part: together, the result buffer whole
    ihave HzL := (Entails.of_eq (land_congr m c fL hfL)) $$ HzL
    ihave Hown := (Entails.of_eq (own_congr m c g1)) $$ Hown
    ihave Hout := (out_join c (outAt m c)) $$ [HzL Hown]
    · isplitl [HzL]; · iexact HzL
      iexact Hown
    rw [wp_ret]; imodintro
    iapply Hk
    unfold bodyPost Φ₁ Dat.owesAt Pipeline.owesWithin
    rw [show (dats m 0 c).owed t₀.succ = 0 from rfl]
    isplitl [Hscr HzS HzV]
    · isplitl [Hscr]; · iexists (commval m c); unfold sendPay; iexact Hscr
      isplitl [HzS]; · iexact HzS
      iexact HzV
    isplitl [HO]
    · iexists (insert (SemLoc.dma sendS.sem, ()) (insert (SemLoc.dma recvS.sem, ()) (insert (SemLoc.reg barS, ()) W)))
      isplitr; · ipureintro; exact fun _ _ => Or.inl trivial
      iexact HO
    isplitl [Hx]
    · iexists _; isplitr; · (ipureintro; rfl)
      iexact Hx
    iexists _; isplitr; · (ipureintro; rfl)
    iexact Hout

/-- The library's body obligation on device `c`. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

end Body

set_option maxRecDepth 4000 in
theorem body_obligation (c : Dev nD) : BodyObligation (dats (F := F) m 0 c) (defs₀ (F := F)) 𝒱₀ () Set.univ := fun t => by
  rw [fin_N t]
  rw [Gen.bigSep_W0, Gen.bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Cert.KernelProof

end
-- ==== Proof.Kernel.Launch.lean ====
/-
  The launch: from every device's body to the run of the whole mesh.

  Every device starts with its three cells' round state, its positions, and the duty tokens of ITS OWN cells; the
  tokens are then dealt to the devices that pay them — a barrier cell's and a receive cell's token go to the owner's
  partner, a send cell's token stays.  Since the partner relation is an involution the deal is a permutation of the
  devices.  What each device owes at launch (its partner's receive credit and one unit on its partner's barrier
  cell) is, summed over the devices, exactly each cell's expected credit, which is what the owner waits with.
-/
import proofs.«900336_g7700000000000337_dist_a2a_v7x_xyz2x2x2_z_m256_n256_bf16_1_alg».proof.Proof.Kernel.Body

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def protoCells : Finset (GSem nD τ sig) := Finset.univ.map ⟨kcell, kcell_injective⟩

/-- The duty tokens as minted: one per cell. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg (fun x : GSem nD τ sig × ℕ × Unit => x.1) h)
def protoToks : Finset (GSem nD τ sig × ℕ × Unit) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (sched m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 3 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin3]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (sched m) (K ck) (kcell ck) : sProp 𝕄)) ⊢ cellInv ER (sched m) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (pt c)) 0 () ∗ dutyTok ER (recvCell (pt c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtB, HtV, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (pt c, 0)); iexact HI
    iapply (inv_at m K (pt c, 2)); iexact HI
  isplitl [HaB]; · iexact HaB
  isplitl [HaS]; · iexact HaS
  isplitl [HaV]; · iexact HaV
  isplitr; · iapply (reached_at (F := F) (pt c, 0)); iexact HR
  isplitr; · iapply (reached_at (F := F) (pt c, 2)); iexact HR
  isplitr; · iapply (reached_at (F := F) (c, 1)); iexact HR
  isplitr; · iapply (reached_at (F := F) (c, 2)); iexact HR
  isplitl [HtB]; · iexact HtB
  isplitl [HtV]; · iexact HtV
  iexact HtS

/-- The tokens dealt to the payers: a barrier cell's and a receive cell's to the owner's partner. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (sched m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What device `d` owes device `c`'s barrier cell: a unit if it is `c`'s partner. -/
theorem owed_bar (d c : Dev nD) : O₀ d (barCell c) () = if d = pt c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = pt c
  · subst h; rw [pt_pt, if_pos ⟨rfl, rfl⟩, if_pos rfl]
  · rw [if_neg (fun ⟨h1, _⟩ => h (by rw [← pt_pt d]; exact congrArg pt (bar_eq_iff.mp h1).symm)), if_neg h]

theorem owed_recv (d c : Dev nD) : O₀ d (recvCell c) () = if d = pt c then N else 0 := by
  unfold O₀
  rw [Pi.add_apply, Finsupp.add_apply, tallyAt_apply,
    tallyAt_ne_cell (fun h => recv_ne_bar (congrArg Prod.snd h)), Finsupp.zero_apply, Nat.add_zero]
  by_cases h : d = pt c
  · subst h; rw [pt_pt, if_pos ⟨rfl, rfl⟩, if_pos rfl]
  · rw [if_neg (fun ⟨h1, _⟩ => h (by rw [← pt_pt d]; exact congrArg pt (recv_eq_iff.mp h1).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (pt c) fun _ => 1, if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (pt c) fun _ => N,
    if_pos (Finset.mem_univ _)]

theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; rw [commPts_eq]; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨⟨%f, Hr⟩, HzS, HzV⟩
  isplitr; · iempintro
  isplitl [HzS HzV]
  · isplitl [HzS] <;> iassumption
  iexists f; rw [← commPts_eq]; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of eight devices, for any float values, from any memory with zero counters: every weakly fair
    execution of @main — the eight kernels shaking hands pairwise on the runtime's barrier semaphore, then copying
    across each pair — terminates, and every final state has each device's windowed arrays at the proof data's. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m c (0 : Fin 2) = m (win0_0.arr.view.loc (c : Thread nD τ)) :=
  (dats (F := F) m 0 c).arrAt_in (0 : Fin 2) rfl _

/-- The frame: the run with the values dropped — the input array is only read. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c (0 : Fin 2)).trans (finalA_x m c)) (run_main m ρ)

end Cert.KernelProof

end
-- ==== Proof.KernelIdeal.Proto.lean ====
/-
  The all-to-all along the mesh axis z, one device's protocol.

  Device `c` holds rows [256 z, 256 z + 256) of the whole 512 x 512 array (z the low bit of `c`) and must end
  holding columns [256 z, 256 z + 256) of it, as a 512 x 256 array.  Its partner `pt c` is the device with the other
  z and the same x, y.  Half of what `c` must hold it already has: rows [256 z, 256 z + 256) of its result are
  columns [256 z, 256 z + 256) of its own block.  The other half, rows [256 (1 - z), 256 (1 - z) + 256), are the
  same columns of the partner's block; the partner rounds them into its scratch buffer and copies that buffer into
  those rows of `c`'s result.

  Three semaphore cells per device, one round each, one duty each:
  * the barrier cell: the partner signals one unit, handing over the rows of ITS result buffer that `c` is about to
    write into (so a copy cannot land in a buffer its owner has not yet entered the kernel with), and the fact that
    the partner has reached round 0 of its receive cell;
  * the receive cell: the partner's copy pays the block's credit, handing back those rows of `c`'s result holding
    the partner's scratch buffer;
  * the send cell: `c`'s own copy pays the block's credit once the scratch buffer has been read, handing it back.
  A device waits on its barrier cell while it still owes the partner's receive cell: barrier cells sit at level 1,
  receive cells at level 2, everything else at level 0.
-/
import proofs.«900336_g7700000000000337_dist_a2a_v7x_xyz2x2x2_z_m256_n256_bf16_1_alg».proof.Proof.Gen.KernelIdeal.Frame
import proofs.«900336_g7700000000000337_dist_a2a_v7x_xyz2x2x2_z_m256_n256_bf16_1_alg».proof.Proof.Gen.KernelIdeal.Skeleton
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own cells beside the protocol's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The partner: the device with the other z -/

def pt (c : Dev nD) : Dev nD :=
  ⟨(4 * (c.val / 4) + 2 * ((c.val / 2) % 2) + 1) - (c.val % 2), by have h : c.val < 8 := c.isLt; show _ < 8; omega⟩

theorem pt_pt (c : Dev nD) : pt (pt c) = c := by revert c; decide
theorem pt_ne (c : Dev nD) : pt c ≠ c := by revert c; decide
theorem pt_bit (c : Dev nD) : (pt c).val % 2 = 1 - c.val % 2 := by revert c; decide

/-- The printed device chains: the signal and the copy both name the partner. -/
theorem dev1_eq (c : Dev nD) : (⟨k0_dev1 c, k0_dev1_lt c⟩ : Dev nD) = pt c := Fin.ext (k0_dev1_eq c)
theorem dev2_eq (c : Dev nD) : (⟨k0_dev2 c, k0_dev2_lt c⟩ : Dev nD) = pt c := Fin.ext (k0_dev2_eq c)

def swap : Dev nD ≃ Dev nD := ⟨pt, pt, pt_pt, pt_pt⟩

/-! ## Memrefs, zones and cells -/

abbrev xM : Memref sig .tc .vmem S256x512 .f32 := Memref.whole cc0_stg0_0
abbrev oM : Memref sig .tc .vmem S512x256 .bf16 := Memref.whole cc0_stg1_0
abbrev cM : Memref sig .tc .vmem S256x256 .bf16 := Memref.whole cc0_scratch0

/-- The rows of a result buffer that belong to device `c`'s block of the input: [256 z, 256 z + 256), all columns.
    Device `c` stores them in its own result buffer and copies into them in its partner's. -/
abbrev zone (c : Dev nD) : Rect S512x256 := Rect.unit (s := S512x256) (k0_off1 c) S256x256.size (k0_off1_inb c)

/-- The slice of a result buffer at `c`'s zone, as the copy names it. -/
abbrev zM (c : Dev nD) : Memref sig .tc .vmem S256x256 .bf16 := oM.slice (zone c) (fun _ => rfl)

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one 256 x 256 block of the result buffer. -/
abbrev N : ℕ := (cM : Memref sig .tc .vmem S256x256 .bf16).view.dmaCredit
theorem N_pos : 0 < N := View.dmaCredit_pos _ (by decide)

/-! ## Contents -/

/-- Device `c`'s block of the input as the kernel body finds it in the input's staging buffer. -/
def xstg (c : Dev nD) : (cc0_stg0_0 : Ref sig .tc).ty.Contents (Elt F) := Gen.iblk m c 0 Gen.t0_0

/-- The left and the right half of the block's columns. -/
abbrev rL : Rect S256x512 := Rect.unit (s := S256x512) ![0, 0] S256x256.size inb_S256x512_S256x256_0_0
abbrev rR : Rect S256x512 := Rect.unit (s := S256x512) ![0, 256] S256x256.size inb_S256x512_S256x256_0_256

def xL (c : Dev nD) : Vec F S256x256 .f32 := (xM : Memref sig .tc .vmem S256x512 .f32).view.readAt (Elt F) rL.toLoadRect (xstg m c)
def xR (c : Dev nD) : Vec F S256x256 .f32 := (xM : Memref sig .tc .vmem S256x512 .f32).view.readAt (Elt F) rR.toLoadRect (xstg m c)

/-- What `c` puts in its scratch buffer: the columns of its block that its PARTNER must end holding, rounded. -/
def commval (c : Dev nD) : (cc0_scratch0 : Ref sig .tc).ty.Contents (Elt F) :=
  if c.val % 2 = 0 then k0_pay1 (xR m c) else k0_pay3 (xL m c)

/-- What `c` stores in its own zone of its result buffer: the columns of its block that it must itself end holding. -/
def ownval (c : Dev nD) : FVec F S256x256 .bf16 :=
  if c.val % 2 = 0 then k0_pay2 (xL m c) else k0_pay4 (xR m c)

/-! ## What is owned -/

/-- The scratch buffer of device `c`, whole. -/
def commPts (c : Dev nD) (f : Buf (Elt F) ((cM : Memref sig .tc .vmem S256x256 .bf16).view.loc (c : Thread nD τ))) : sProp 𝕄 :=
  (cM : Memref sig .tc .vmem S256x256 .bf16).view.loc (c : Thread nD τ) ↦[(cM : Memref sig .tc .vmem S256x256 .bf16).view.set]{fullShare} f

/-- The zone of device `s` (the rows of its block) in the result buffer of device `d`. -/
def zonePts (d s : Dev nD) (f : Buf (Elt F) ((zM s).view.loc (d : Thread nD τ))) : sProp 𝕄 :=
  (zM s).view.loc (d : Thread nD τ) ↦[(zM s).view.set]{fullShare} f

instance commPts_storable (c : Dev nD) (f) : BI.Storable (upEmb : UEmb _ 𝕄) (commPts (F := F) c f) := by unfold commPts; infer_instance
instance zonePts_storable (d s : Dev nD) (f) : BI.Storable (upEmb : UEmb _ 𝕄) (zonePts (F := F) d s f) := by unfold zonePts; infer_instance

theorem comm_set : (cM : Memref sig .tc .vmem S256x256 .bf16).view.set = Finset.univ := View.set_whole _
theorem commPts_eq (c : Dev nD) (f : Buf (Elt F) ((c : Thread nD τ).loc cc0_scratch0)) :
    commPts c f = (((c : Thread nD τ).loc cc0_scratch0) ↦{fullShare} f : sProp 𝕄) := by unfold commPts; rw [comm_set]

/-! ## The schedule -/

/-- What the partner's signal hands `c`: `c`'s zone in the PARTNER's result buffer, at whatever it holds, and that the
    partner has reached round 0 of its receive cell. -/
def barPay (c : Dev nD) : sProp 𝕄 := iprop((∃ f, zonePts (pt c) c f) ∗ reached ER (recvCell (pt c)) 0)
/-- What the partner's copy hands `c`: the partner's zone in `c`'s result buffer, reading as the partner's scratch buffer. -/
def recvPay (c : Dev nD) : sProp 𝕄 :=
  iprop(∃ f, ⌜(zM (pt c)).view.read (Elt F) f = commval m (pt c)⌝ ∗ zonePts c (pt c) f)
/-- What `c`'s own copy hands back once its source is read: its scratch buffer, unchanged. -/
def sendPay (c : Dev nD) : sProp 𝕄 := commPts c (commval m c)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, round 0, one duty per cell: a barrier cell one unit from the partner's signal, a send or a receive cell
    the block's credit from a copy. -/
def sched : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m).duties (barCell c) 0 = {()} := by dsimp only [sched]; exact if_pos ⟨rfl, .inl ⟨rfl, rfl⟩⟩
theorem duties_send : (sched (F := F) m).duties (sendCell c) 0 = {()} := by dsimp only [sched]; exact if_pos ⟨rfl, .inr ⟨rfl, .inl rfl⟩⟩
theorem duties_recv : (sched (F := F) m).duties (recvCell c) 0 = {()} := by dsimp only [sched]; exact if_pos ⟨rfl, .inr ⟨rfl, .inr rfl⟩⟩
theorem duties_later (g : GSem nD τ sig) : ∀ r, 1 ≤ r → (sched (F := F) m).duties g r = ∅ :=
  fun r hr => by dsimp only [sched]; rw [if_neg fun h => by omega]

theorem amount_bar (d : Unit) : (sched (F := F) m).amount (barCell c) 0 d = 1 := by dsimp only [sched]; exact if_pos rfl
theorem amount_send (d : Unit) : (sched (F := F) m).amount (sendCell c) 0 d = N := by dsimp only [sched]; exact if_neg send_ne_bar
theorem amount_recv (d : Unit) : (sched (F := F) m).amount (recvCell c) 0 d = N := by dsimp only [sched]; exact if_neg recv_ne_bar

theorem expect_bar : (sched (F := F) m).expect (barCell c) 0 = 1 := by
  unfold Schedule.expect Schedule.amountOf; rw [duties_bar, Finset.sum_singleton, amount_bar]
theorem expect_send : (sched (F := F) m).expect (sendCell c) 0 = N := by
  unfold Schedule.expect Schedule.amountOf; rw [duties_send, Finset.sum_singleton, amount_send]
theorem expect_recv : (sched (F := F) m).expect (recvCell c) 0 = N := by
  unfold Schedule.expect Schedule.amountOf; rw [duties_recv, Finset.sum_singleton, amount_recv]

theorem payload_bar (d : Unit) : (sched (F := F) m).payload (barCell c) 0 d = barPay c := by dsimp only [sched]; rw [if_pos rfl]
theorem payload_send (d : Unit) : (sched (F := F) m).payload (sendCell c) 0 d = sendPay m c := by
  dsimp only [sched]; rw [if_neg send_ne_bar, if_neg send_ne_recv, if_pos rfl]
theorem payload_recv (d : Unit) : (sched (F := F) m).payload (recvCell c) 0 d = recvPay m c := by
  dsimp only [sched]; rw [if_neg recv_ne_bar, if_pos rfl]

theorem rest_bar : bigSep ((sched (F := F) m).duties (barCell c) 0 \ ∅) (fun d => (sched (F := F) m).payload (barCell c) 0 d) = barPay c := by
  rw [Finset.sdiff_empty, duties_bar, bigSep_singleton, payload_bar]
theorem rest_send : bigSep ((sched (F := F) m).duties (sendCell c) 0 \ ∅) (fun d => (sched (F := F) m).payload (sendCell c) 0 d) = sendPay m c := by
  rw [Finset.sdiff_empty, duties_send, bigSep_singleton, payload_send]
theorem rest_recv : bigSep ((sched (F := F) m).duties (recvCell c) 0 \ ∅) (fun d => (sched (F := F) m).payload (recvCell c) 0 d) = recvPay m c := by
  rw [Finset.sdiff_empty, duties_recv, bigSep_singleton, payload_recv]

end Sched

/-! ## What each device owes at launch; the levels -/

/-- Device `c` owes its partner's receive cell the block's credit and its partner's barrier cell one unit; the signal
    comes first and peels the last summand. -/
def O₀ (c : Dev nD) : CellTallies nD τ sig Unit := tallyAt (recvCell (pt c)) () N + tallyAt (barCell (pt c)) () 1

def L (g : GSem nD τ sig) : Finset Unit := if g.1.2 = .tc then {()} else ∅
/-- Barrier cells at 1, receive cells at 2, everything else (the staging cells, the send cells) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (pt c) ∨ g = barCell (pt c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

/-- A wait on a staging cell or on the send cell (level 0) is allowed whatever of `O₀` is still owed. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its barrier wait a device owes its partner's receive credit only: a receive cell, above its barrier cell. -/
theorem mayWait_bar (c : Dev nD) :
    (levAts L lv : sProp 𝕄) ⊢ MayWait (c : Thread nD τ) (.reg barS) () (tallyAt (recvCell (pt c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (pt c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (pt c) ∧ u = ()
      · rw [h.1]; dsimp only [lv]; rw [if_neg recv_ne_bar, if_pos rfl]; decide
      · rw [if_neg h] at hg; exact absurd hg (Nat.lt_irrefl 0))

/-! ## The two zones of a result buffer

Rows [0, 256) and rows [256, 512): disjoint, and together the whole buffer.  A device's own zone is the one its
z names, its partner's the other. -/

abbrev Z0 : Rect S512x256 := Rect.unit (s := S512x256) ![0, 0] S256x256.size inb_S512x256_S256x256_0_0
abbrev Z1 : Rect S512x256 := Rect.unit (s := S512x256) ![256, 0] S256x256.size inb_S512x256_S256x256_256_0

theorem mem_Z0 (i : S512x256.Idx) : i ∈ Z0.set ↔ (i 0).val < 256 := by
  have h0 : (i 0).val < 512 := (i 0).isLt
  have h1 : (i 1).val < 256 := (i 1).isLt
  rw [Rect.mem_set_unit, Fin.forall_fin_two]
  show (0 ≤ (i 0).val ∧ (i 0).val < 0 + 256) ∧ (0 ≤ (i 1).val ∧ (i 1).val < 0 + 256) ↔ _
  omega

theorem mem_Z1 (i : S512x256.Idx) : i ∈ Z1.set ↔ 256 ≤ (i 0).val := by
  have h0 : (i 0).val < 512 := (i 0).isLt
  have h1 : (i 1).val < 256 := (i 1).isLt
  rw [Rect.mem_set_unit, Fin.forall_fin_two]
  show (256 ≤ (i 0).val ∧ (i 0).val < 256 + 256) ∧ (0 ≤ (i 1).val ∧ (i 1).val < 0 + 256) ↔ _
  omega

theorem compl_Z1 : Finset.univ \ Z1.set = Z0.set := by
  ext i
  rw [Finset.mem_sdiff, mem_Z0, mem_Z1]
  simp only [Finset.mem_univ, true_and]
  omega

theorem compl_Z0 : Finset.univ \ Z0.set = Z1.set := by
  ext i
  rw [Finset.mem_sdiff, mem_Z0, mem_Z1]
  simp only [Finset.mem_univ, true_and]
  omega

theorem off_even (c : Dev nD) (h : c.val % 2 = 0) : k0_off1 c = ![0, 0] := by
  have e := k0_off1_eq c; rw [h] at e; exact e
theorem off_odd (c : Dev nD) (h : c.val % 2 = 1) : k0_off1 c = ![256, 0] := by
  have e := k0_off1_eq c; rw [h] at e; exact e

theorem zone_even (c : Dev nD) (h : c.val % 2 = 0) : zone c = Z0 := Rect.unit_congr (off_even c h) _ _
theorem zone_odd (c : Dev nD) (h : c.val % 2 = 1) : zone c = Z1 := Rect.unit_congr (off_odd c h) _ _
theorem zone_pt_even (c : Dev nD) (h : c.val % 2 = 0) : zone (pt c) = Z1 := zone_odd (pt c) (by have := pt_bit c; omega)
theorem zone_pt_odd (c : Dev nD) (h : c.val % 2 = 1) : zone (pt c) = Z0 := zone_even (pt c) (by have := pt_bit c; omega)

/-- What is left of a device's result buffer once its partner's zone is taken out is its own zone. -/
theorem zone_compl (c : Dev nD) : Finset.univ \ (zone (pt c)).set = (zone c).set := by
  rcases Nat.mod_two_eq_zero_or_one c.val with h | h
  · rw [zone_even c h, zone_pt_even c h]; exact compl_Z1
  · rw [zone_odd c h, zone_pt_odd c h]; exact compl_Z0

/-- The elements of a result buffer under the slice at a device's zone are the zone's. -/
theorem zM_set (s : Dev nD) : (zM s).view.set = (zone s).set := View.set_slice_whole cc0_stg1_0 (zone s)

end Cert.KernelIdealProof

end
-- ==== Proof.KernelIdeal.Body.lean ====
/-
  One device's kernel body, stepped from the protocol's invariant.

  What device `c`'s result buffer ends holding is put together from two pieces that never overlap: its own zone,
  which it stores itself (the columns of its block that it keeps, rounded), and its partner's zone, which the
  partner's copy fills (the same columns of the partner's block, rounded by the partner).  The body starts owning its
  result buffer whole.  It first takes the partner's zone out and hands it to the partner with its signal; stores
  its scratch buffer and its own zone; waits for the partner's signal, which brings the partner's buffer's zone
  to copy into; copies; waits for the partner's copy, which brings the partner's zone of its own buffer back,
  filled; waits for its own copy to have read the scratch buffer; and puts the two zones together again.
-/
import proofs.«900336_g7700000000000337_dist_a2a_v7x_xyz2x2x2_z_m256_n256_bf16_1_alg».proof.Proof.KernelIdeal.Proto
import proofs.«900336_g7700000000000337_dist_a2a_v7x_xyz2x2x2_z_m256_n256_bf16_1_alg».proof.Proof.LibView

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The one grid point -/

theorem cfg0_N : cfg0.N = 1 := Gen.N_0
abbrev t₀ : Fin cfg0.N := Gen.t0_0
theorem fin_N (t : Fin cfg0.N) : t = t₀ := Gen.fin_N0 t

/-! ## What the result buffer ends holding -/

/-- Device `c`'s result: its own zone holding what it keeps of its block, its partner's zone holding what the partner
    sent (the contents elsewhere do not matter: the two zones are the whole buffer). -/
def outAt (c : Dev nD) : (cc0_stg1_0 : Ref sig .tc).ty.Contents (Elt F) :=
  (zM (pt c)).view.write (Elt F)
    ((zM c).view.write (Elt F) (fun _ => Classical.arbitrary _) (ownval m c) Finset.univ)
    (commval m (pt c)) Finset.univ

/-- Read through the partner's zone, the result is what the partner sent. -/
theorem read_outAt_pt (c : Dev nD) : (zM (pt c)).view.read (Elt F) (outAt m c) = commval m (pt c) := by
  unfold outAt; exact View.read_write_univ _ _

/-- A device's own zone and its partner's share no element. -/
theorem zones_disjoint (c : Dev nD) : Disjoint (zM c).view.set ((zM (pt c)).view.setOn Finset.univ) := by
  rw [View.setOn_univ, zM_set, zM_set, ← zone_compl c]; exact Finset.sdiff_disjoint

/-- On the partner's zone, contents that read as the partner's scratch buffer through it are the result. -/
theorem land_eqOn (c : Dev nD) (fL : (cc0_stg1_0 : Ref sig .tc).ty.Contents (Elt F))
    (hL : (zM (pt c)).view.read (Elt F) fL = commval m (pt c)) : ∀ i ∈ (zM (pt c)).view.set, fL i = outAt m c i :=
  Cert.LibView.eqOn_of_read_eq (zM (pt c)).view (hL.trans (read_outAt_pt m c).symm)

/-- On the own zone, what storing the own piece left of any contents is the result. -/
theorem own_eqOn (c : Dev nD) (g : (cc0_stg1_0 : Ref sig .tc).ty.Contents (Elt F)) :
    ∀ i ∈ (zM c).view.set, (zM c).view.write (Elt F) g (ownval m c) Finset.univ i = outAt m c i := by
  intro i hi
  unfold outAt
  rw [View.write_of_not_mem _ _ _ (Finset.disjoint_left.mp (zones_disjoint c) hi)]
  exact Cert.LibView.write_univ_eqOn (zM c).view _ _ _ i hi

/-! ## The ghost state a device starts from, and the proof data -/

/-- The cells' invariants device `c`'s body opens, at the names `K` the launch allocated them at: its own three, its
    partner's barrier cell (its signal) and its partner's receive cell (its copy). -/
def invs (K : Dev nD × Fin 3 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (pt c, 0)) (barCell (pt c)) ∗ cellInv ER (sched m) (K (pt c, 2)) (recvCell (pt c)))

instance invs_persistent (K : Dev nD × Fin 3 → ℕ) (c : Dev nD) : BI.Persistent (invs m K c) := by unfold invs; infer_instance

/-- The protocol's ghost state device `c` starts from: the invariants; its positions at round 0 of its three cells; that
    round 0 is reached of the two cells it pays and of its own send and receive cells; the three duty tokens it pays
    with — its partner's barrier duty, its partner's receive duty, its own send duty. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (pt c)) 0 ∗ reached ER (recvCell (pt c)) 0 ∗ reached ER (sendCell c) 0 ∗ reached ER (recvCell c) 0
    ∗ dutyTok ER (barCell (pt c)) 0 () ∗ dutyTok ER (recvCell (pt c)) 0 () ∗ dutyTok ER (sendCell c) 0 ())

/-- What device `c`'s body starts from: that, at some names; the credit of its barrier cell (one unit) and of its receive
    cell (the block's); the levels. -/
def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ ∃ f, commPts c f)
/-- After the point: the scratch buffer back, the two own cells at zero and closed (the barrier cell is the runtime's:
    nothing to hand back). -/
def Φ₁ (c : Dev nD) : sProp 𝕄 := iprop((∃ f, commPts c f) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The input's staging buffer holds the device's block at the point, fetched there. -/
theorem before_x (c : Dev nD) (d) : (dats m 0 c).before (0 : Fin 2) t₀ d = xstg m c :=
  ((dats m 0 c).before_fetched (0 : Fin 2) t₀ (Gen.fetch0_0 t₀) d).trans (by unfold Dat.fetched Dat.blockOf xstg Gen.iblk; rfl)

/-! ## Splitting and rejoining the result buffer -/

/-- Device `c`'s own zone of its own result buffer. -/
def ownPts (c : Dev nD) (f : Buf (Elt F) ((c : Thread nD τ).loc cc0_stg1_0)) : sProp 𝕄 :=
  ((c : Thread nD τ).loc cc0_stg1_0) ↦[(zone c).set]{fullShare} f

/-- The result buffer, whole, is the partner's zone and the own zone. -/
theorem out_split (c : Dev nD) (g : Buf (Elt F) ((c : Thread nD τ).loc cc0_stg1_0)) :
    (((c : Thread nD τ).loc cc0_stg1_0) ↦{fullShare} g : sProp 𝕄) ⊢ iprop(zonePts c (pt c) g ∗ ownPts c g) := by
  unfold zonePts ownPts
  rw [zM_set, ← zone_compl c]
  exact (pointsTo_split_subset (Finset.subset_univ _)).1

/-- The two zones at one contents are the result buffer whole at it. -/
theorem out_join (c : Dev nD) (f : Buf (Elt F) ((c : Thread nD τ).loc cc0_stg1_0)) :
    iprop(zonePts c (pt c) f ∗ ownPts c f) ⊢ (((c : Thread nD τ).loc cc0_stg1_0) ↦{fullShare} f : sProp 𝕄) := by
  unfold zonePts ownPts
  rw [zM_set, ← zone_compl c]
  exact (pointsTo_split_subset (Finset.subset_univ _)).2

/-- The partner's zone, filled by the partner, holds the result there. -/
theorem land_congr (c : Dev nD) (fL : (cc0_stg1_0 : Ref sig .tc).ty.Contents (Elt F))
    (hL : (zM (pt c)).view.read (Elt F) fL = commval m (pt c)) : zonePts c (pt c) fL = zonePts c (pt c) (outAt m c) := by
  unfold zonePts; exact pointsTo_congr (land_eqOn m c fL hL)

/-- The own zone, stored, holds the result there. -/
theorem own_congr (c : Dev nD) (g : (cc0_stg1_0 : Ref sig .tc).ty.Contents (Elt F)) :
    ownPts c ((zM c).view.write (Elt F) g (ownval m c) Finset.univ) = ownPts c (outAt m c) := by
  unfold ownPts; rw [← zM_set]; exact pointsTo_congr (own_eqOn m c g)

/-- Writes through unit rectangles of one size at equal offsets are the same write. -/
theorem write_unit_congr {off off' : Fin 2 → Nat} (h : off = off') (p : ∀ a, off a + S256x256.size a ≤ S512x256.size a)
    (p' : ∀ a, off' a + S256x256.size a ≤ S512x256.size a) (g : (cc0_stg1_0 : Ref sig .tc).ty.Contents (Elt F)) (w : S256x256.Idx → Elt F .bf16) :
    ((oM : Memref sig .tc .vmem S512x256 .bf16).access (Rect.unit (s := S512x256) off S256x256.size p)).write (Elt F) g w Finset.univ
      = ((oM : Memref sig .tc .vmem S512x256 .bf16).access (Rect.unit (s := S512x256) off' S256x256.size p')).write (Elt F) g w Finset.univ := by
  subst h; rfl

/-- The own zone, through the literal rectangle the body's store names (z = 0: rows [0, 256)), and back after the store. -/
theorem own_to_rect_even (c : Dev nD) (hz : c.val % 2 = 0) (g : Buf (Elt F) ((c : Thread nD τ).loc cc0_stg1_0)) :
    ownPts c g ⊢ ((((oM : Memref sig .tc .vmem S512x256 .bf16).access Z0).loc (c : Thread nD τ)) ↦[((oM : Memref sig .tc .vmem S512x256 .bf16).access Z0).set]{fullShare} g : sProp 𝕄) := by
  unfold ownPts; rw [zone_even c hz, show ((oM : Memref sig .tc .vmem S512x256 .bf16).access Z0).set = Z0.set from View.set_slice_whole _ _]
theorem own_to_rect_odd (c : Dev nD) (hz : c.val % 2 = 1) (g : Buf (Elt F) ((c : Thread nD τ).loc cc0_stg1_0)) :
    ownPts c g ⊢ ((((oM : Memref sig .tc .vmem S512x256 .bf16).access Z1).loc (c : Thread nD τ)) ↦[((oM : Memref sig .tc .vmem S512x256 .bf16).access Z1).set]{fullShare} g : sProp 𝕄) := by
  unfold ownPts; rw [zone_odd c hz, show ((oM : Memref sig .tc .vmem S512x256 .bf16).access Z1).set = Z1.set from View.set_slice_whole _ _]

theorem rect_to_own_even (c : Dev nD) (hz : c.val % 2 = 0) (g : Buf (Elt F) ((c : Thread nD τ).loc cc0_stg1_0)) (w : S256x256.Idx → Elt F .bf16)
    (hw : w = ownval m c) :
    ((((oM : Memref sig .tc .vmem S512x256 .bf16).access Z0).loc (c : Thread nD τ)) ↦[((oM : Memref sig .tc .vmem S512x256 .bf16).access Z0).set]{fullShare}
        (((oM : Memref sig .tc .vmem S512x256 .bf16).access Z0).write (Elt F) g w Finset.univ) : sProp 𝕄)
      ⊢ ownPts c ((zM c).view.write (Elt F) g (ownval m c) Finset.univ) := by
  subst hw
  unfold ownPts
  rw [zone_even c hz, show ((oM : Memref sig .tc .vmem S512x256 .bf16).access Z0).set = Z0.set from View.set_slice_whole _ _,
    show (zM c).view.write (Elt F) g (ownval m c) Finset.univ = ((oM : Memref sig .tc .vmem S512x256 .bf16).access Z0).write (Elt F) g (ownval m c) Finset.univ from
      write_unit_congr (off_even c hz) _ _ g _]
theorem rect_to_own_odd (c : Dev nD) (hz : c.val % 2 = 1) (g : Buf (Elt F) ((c : Thread nD τ).loc cc0_stg1_0)) (w : S256x256.Idx → Elt F .bf16)
    (hw : w = ownval m c) :
    ((((oM : Memref sig .tc .vmem S512x256 .bf16).access Z1).loc (c : Thread nD τ)) ↦[((oM : Memref sig .tc .vmem S512x256 .bf16).access Z1).set]{fullShare}
        (((oM : Memref sig .tc .vmem S512x256 .bf16).access Z1).write (Elt F) g w Finset.univ) : sProp 𝕄)
      ⊢ ownPts c ((zM c).view.write (Elt F) g (ownval m c) Finset.univ) := by
  subst hw
  unfold ownPts
  rw [zone_odd c hz, show ((oM : Memref sig .tc .vmem S512x256 .bf16).access Z1).set = Z1.set from View.set_slice_whole _ _,
    show (zM c).view.write (Elt F) g (ownval m c) Finset.univ = ((oM : Memref sig .tc .vmem S512x256 .bf16).access Z1).write (Elt F) g (ownval m c) Finset.univ from
      write_unit_congr (off_odd c hz) _ _ g _]

/-- What each parity stores, by name. -/
theorem commval_even (c : Dev nD) (hz : c.val % 2 = 0) : commval m c = k0_pay1 (xR m c) := if_pos hz
theorem commval_odd (c : Dev nD) (hz : c.val % 2 = 1) : commval m c = k0_pay3 (xL m c) := if_neg (by omega)
theorem ownval_even (c : Dev nD) (hz : c.val % 2 = 0) : ownval m c = k0_pay2 (xL m c) := if_pos hz
theorem ownval_odd (c : Dev nD) (hz : c.val % 2 = 1) : ownval m c = k0_pay4 (xR m c) := if_neg (by omega)

/-- A store of the whole scratch buffer leaves what was stored. -/
theorem write_comm (f w : (cc0_scratch0 : Ref sig .tc).ty.Contents (Elt F)) :
    ((cM : Memref sig .tc .vmem S256x256 .bf16).access (Rect.unit (s := S256x256) ![0, 0] S256x256.size inb_S256x256_S256x256_0_0)).write (Elt F) f w Finset.univ = w :=
  Memref.write_access_unit_zero_univ (Elt F) cc0_scratch0 (funext fun a => by fin_cases a <;> rfl) _ f w

/-! ## The body -/

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 1) ∗ cred (tallyAt (recvCell c) () N) ∗ levAts L lv ∗ ∃ f, commPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

/-- The two conditions of the body, by the device's z. -/
theorem cond1_even : ∀ c : Dev nD, c.val % 2 = 0 →
    Scalar.cmpi .ne (Scalar.extui (Scalar.cmpi .eq (Scalar.remsi (Scalar.divsi (Dev.word c) 1#32) 2#32) 0#32)) 0#32 = 1#1 := by decide
theorem cond2_even : ∀ c : Dev nD, c.val % 2 = 0 →
    ¬ Scalar.cmpi .ne (Scalar.extui (Scalar.xori (Scalar.cmpi .eq (Scalar.remsi (Scalar.divsi (Dev.word c) 1#32) 2#32) 0#32) 1#1)) 0#32 = 1#1 := by decide
theorem cond1_odd : ∀ c : Dev nD, c.val % 2 = 1 →
    ¬ Scalar.cmpi .ne (Scalar.extui (Scalar.cmpi .eq (Scalar.remsi (Scalar.divsi (Dev.word c) 1#32) 2#32) 0#32)) 0#32 = 1#1 := by decide
theorem cond2_odd : ∀ c : Dev nD, c.val % 2 = 1 →
    Scalar.cmpi .ne (Scalar.extui (Scalar.xori (Scalar.cmpi .eq (Scalar.remsi (Scalar.divsi (Dev.word c) 1#32) 2#32) 0#32) 1#1)) 0#32 = 1#1 := by decide

/-- The barrier duty's payload at the partner's cell, leaf by leaf: this device's partner's zone of its own result buffer,
    at whatever it holds, and that this device has reached round 0 of its receive cell. -/
theorem payload_bar_pt (c : Dev nD) (d : Unit) : (sched (F := F) m).payload (barCell (pt c)) 0 d
    = iprop((∃ f, (zM (pt c)).view.loc (c : Thread nD τ) ↦[(zM (pt c)).view.set]{fullShare} f) ∗ reached ER (recvCell c) 0) := by
  rw [payload_bar]; unfold barPay zonePts; rw [pt_pt]

-- the schedule's tables, as rewriting equations: each cell's duties, amounts, expected units and the barrier duty's payload
attribute [local sl_rounds] duties_bar duties_send duties_recv amount_bar amount_send amount_recv expect_bar expect_send expect_recv
  payload_bar_pt

/-- The scratch buffer after the store, under its protocol name. -/
theorem scr_to_comm (c : Dev nD) (w : (cc0_scratch0 : Ref sig .tc).ty.Contents (Elt F)) (hw : w = commval m c) :
    ((((c : Thread nD τ).loc cc0_scratch0) ↦{fullShare} w : sProp 𝕄)) ⊢ commPts c (commval m c) := by
  subst hw; rw [commPts_eq]

/-- The copy into the partner's result buffer, at this protocol's cells: the scratch buffer lent to the send cell, the
    partner's buffer's zone rewritten and handed to the partner's receive cell.  (The printed device word `n` is the
    partner: substituted, not rewritten.) -/
theorem wp_send_pt (c n : Dev nD) (hn : n = pt c)
    {hsc : (zM c : Memref sig (Dev.tc n : Thread nD τ).2.kind .vmem S256x256 .bf16).view.ref.isScScratch = false}
    {hsrc : (cM : Memref sig .tc .vmem S256x256 .bf16).view.WordExact} {hdst : (zM c : Memref sig .tc .vmem S256x256 .bf16).view.WordExact}
    {hsem : DmaTarget.Typed .vmem (.dma recvS.sem) (.remote (Dev.tc n : Thread nD τ) (zM c : Memref sig .tc .vmem S256x256 .bf16) (.dma sendS.sem) hsc)}
    {α : Type} {Q : α → sProp 𝕄} {k : PUnit → Prog (TpuEff nD τ sig (Elt F) Λ₀ .tc) α}
    (fn : Buf (Elt F) ((zM c).view.loc (pt c : Thread nD τ))) (W : Waits sig Unit) :
    iprop(cellInv ER (sched m) (K (c, 1)) (sendCell c) ∗ cellInv ER (sched m) (K (pt c, 2)) (recvCell (pt c))
        ∗ commPts c (commval m c) ∗ zonePts (pt c) c fn
        ∗ owes (c : Thread nD τ) (tallyAt (recvCell (pt c)) () N) W
        ∗ dutyTok ER (sendCell c) 0 () ∗ reached ER (sendCell c) 0
        ∗ dutyTok ER (recvCell (pt c)) 0 () ∗ reached ER (recvCell (pt c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma cM (.remote (Dev.tc n : Thread nD τ) (zM c) (.dma sendS.sem) hsc) (.dma recvS.sem) hsrc hdst hsem) k) Q) := by
  subst hn
  unfold commPts zonePts
  exact Rounds.wp_send_pointsTo 𝒱₀ ER (sched m) (c : Thread nD τ) none (κ₁ := K (c, 1)) (κ₂ := K (pt c, 2))
    (r₁ := 0) (r₂ := 0) (d₁ := ()) (d₂ := ()) (fd := fn)
    (by rw [duties_send]; exact Finset.mem_singleton_self _) (by rw [duties_recv]; exact Finset.mem_singleton_self _)
    () () N rfl (amount_send m c ()) (amount_recv m (pt c) ()) 0 (by rw [zero_add]) (W := W)
    (by rw [payload_send]; exact BI.Entails.refl _)
    (by
      rw [payload_recv]; unfold recvPay zonePts; rw [pt_pt]
      iintro H
      iexists ((zM c).view.write (Elt F) fn ((cM : Memref sig .tc .vmem S256x256 .bf16).view.read (Elt F) (commval m c)) Finset.univ)
      isplitr
      · ipureintro; rw [View.read_write_univ]; rfl
      · iexact H)

set_option maxHeartbeats 3200000 in
/-- The body, stepped from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m c := by rw [hg0]; exact before_x m c d0
  subst hx
  unfold Dat.owesAt Pipeline.owesWithin
  icases Ho with ⟨%W, %hW, HO⟩
  rw [show (dats m 0 c).owed t₀.castSucc = O₀ c from rfl]
  simp only [dev1_eq c]
  -- the partner's zone of the result buffer is taken out: it goes with the signal
  ihave Hsp := (out_split c g1) $$ Hout
  icases Hsp with ⟨Hland, Hown⟩
  ihave Hscr := (Entails.of_eq (commPts_eq c f0)) $$ Hscr
  -- the SIGNAL to the partner's barrier cell: the partner's zone, and that this device is at round 0 of its receive cell
  -- (the duty read off its token, the payload off the schedule's tables, the unit off what the device owes)
  unfold zonePts O₀
  sl_exec
  -- the device's z decides both conditionals
  rcases Nat.mod_two_eq_zero_or_one c.val with hz | hz
  on_goal 1 =>
    simp only [cond1_even c hz, cond2_even c hz, ↓reduceDIte, Prog.bind_op, Prog.bind_ret]
    -- z = 0: the right half of the block into the scratch buffer, the left half into the own zone (rows [0, 256))
    iapply (wp_load 𝒱₀ (c : Thread nD τ) none Set.univ (m := xM) (Finset.subset_univ _)) $$ Hx; iintro Hx
    iapply (wp_load 𝒱₀ (c : Thread nD τ) none Set.univ (m := cM) (Finset.subset_univ _)) $$ Hscr; iintro Hscr
    iapply (wp_store 𝒱₀ (c : Thread nD τ) none Set.univ (m := cM) (r := Rect.unit (s := S256x256) ![0, 0] S256x256.size inb_S256x256_S256x256_0_0)
      (Mk := Finset.univ) (Finset.subset_univ _)) $$ Hscr; iintro Hscr
    rw [write_comm]
    iapply (wp_load 𝒱₀ (c : Thread nD τ) none Set.univ (m := xM) (Finset.subset_univ _)) $$ Hx; iintro Hx
    ihave Hown := (own_to_rect_even c hz g1) $$ Hown
    iapply (wp_load_rect 𝒱₀ (c : Thread nD τ) none Set.univ (m := oM) (r := Z0) (Finset.Subset.refl _)) $$ Hown; iintro Hown
    iapply (wp_store 𝒱₀ (c : Thread nD τ) none Set.univ (m := oM) (r := Z0) (Mk := Finset.univ)
      (show ((oM : Memref sig .tc .vmem S512x256 .bf16).access Z0).setOn Finset.univ ⊆ ((oM : Memref sig .tc .vmem S512x256 .bf16).access Z0).set from Finset.Subset.refl _)) $$ Hown; iintro Hown
    ihave Hown := (rect_to_own_even m c hz g1 (k0_pay2 ((xM : Memref sig .tc .vmem S256x512 .f32).view.readAt (Elt F) rL.toLoadRect (xstg m c))) (ownval_even m c hz).symm) $$ Hown
    ihave Hscr := (scr_to_comm m c (k0_pay1 ((xM : Memref sig .tc .vmem S256x512 .f32).view.readAt (Elt F) rR.toLoadRect (xstg m c))) (commval_even m c hz).symm) $$ Hscr
  on_goal 2 =>
    simp only [cond1_odd c hz, cond2_odd c hz, ↓reduceDIte, Prog.bind_op, Prog.bind_ret]
    -- z = 1: the left half of the block into the scratch buffer, the right half into the own zone (rows [256, 512))
    iapply (wp_load 𝒱₀ (c : Thread nD τ) none Set.univ (m := xM) (Finset.subset_univ _)) $$ Hx; iintro Hx
    iapply (wp_load 𝒱₀ (c : Thread nD τ) none Set.univ (m := cM) (Finset.subset_univ _)) $$ Hscr; iintro Hscr
    iapply (wp_store 𝒱₀ (c : Thread nD τ) none Set.univ (m := cM) (r := Rect.unit (s := S256x256) ![0, 0] S256x256.size inb_S256x256_S256x256_0_0)
      (Mk := Finset.univ) (Finset.subset_univ _)) $$ Hscr; iintro Hscr
    rw [write_comm]
    iapply (wp_load 𝒱₀ (c : Thread nD τ) none Set.univ (m := xM) (Finset.subset_univ _)) $$ Hx; iintro Hx
    ihave Hown := (own_to_rect_odd c hz g1) $$ Hown
    iapply (wp_load_rect 𝒱₀ (c : Thread nD τ) none Set.univ (m := oM) (r := Z1) (Finset.Subset.refl _)) $$ Hown; iintro Hown
    iapply (wp_store 𝒱₀ (c : Thread nD τ) none Set.univ (m := oM) (r := Z1) (Mk := Finset.univ)
      (show ((oM : Memref sig .tc .vmem S512x256 .bf16).access Z1).setOn Finset.univ ⊆ ((oM : Memref sig .tc .vmem S512x256 .bf16).access Z1).set from Finset.Subset.refl _)) $$ Hown; iintro Hown
    ihave Hown := (rect_to_own_odd m c hz g1 (k0_pay4 ((xM : Memref sig .tc .vmem S256x512 .f32).view.readAt (Elt F) rR.toLoadRect (xstg m c))) (ownval_odd m c hz).symm) $$ Hown
    ihave Hscr := (scr_to_comm m c (k0_pay3 ((xM : Memref sig .tc .vmem S256x512 .f32).view.readAt (Elt F) rL.toLoadRect (xstg m c))) (commval_odd m c hz).symm) $$ Hscr
  all_goals
    -- the WAIT on the own barrier cell, still owing the partner's receive credit: the partner's buffer's zone comes with it
    iapply (Rounds.wp_wait_rest_token 𝒱₀ ER (sched m) (c : Thread nD τ) none (κ := K (c, 0))
        (wpE_semWait_eq 𝒱₀ (c : Thread nD τ) none Set.univ) (Set.mem_univ _) () (O := tallyAt (recvCell (pt c)) () N) (W := W) (R := 0) (m := 0) (T := ∅)
        (by rw [expect_bar]; decide)) $$ [HcB HO HatB]
    · isplitr; · iexact HIbar
      isplitl [HcB]; · iexact HcB
      isplitl [HO]; · iexact HO
      isplitr; · iapply (mayWait_bar c); iexact Hlev
      iexact HatB
    iintro ⟨HO, HatB, -, Hpay⟩
    ihave Hp := (Entails.of_eq (rest_bar m c)) $$ Hpay
    unfold barPay
    icases Hp with ⟨⟨%fn, HzN⟩, #HrVP'⟩
    -- the COPY of the scratch buffer into the partner's buffer's zone
    iapply (wp_send_pt m K c _ (dev2_eq c) fn (insert (SemLoc.reg barS, ()) W)) $$ [Hscr HzN HO HtS HtVP]
    · isplitr; · iexact HIsnd
      isplitr; · iexact HIrcvP
      isplitl [Hscr]; · iexact Hscr
      isplitl [HzN]; · iexact HzN
      isplitl [HO]; · iexact HO
      isplitl [HtS]; · iexact HtS
      isplitr; · iexact HrS
      isplitl [HtVP]; · iexact HtVP
      iexact HrVP
    iintro ⟨HcS, HO⟩
    -- the wait on the RECEIVE cell: the partner's zone of the own buffer back, filled by the partner
    iapply (Rounds.wp_wait_rest_token 𝒱₀ ER (sched m) (c : Thread nD τ) none (κ := K (c, 2))
        (wpE_waitDma2_eq 𝒱₀ (c : Thread nD τ) none Set.univ) (Set.mem_univ _) () (O := 0) (W := insert (SemLoc.reg barS, ()) W) (R := 0) (m := 0) (T := ∅)
        (by rw [Nat.zero_add, expect_recv])) $$ [HcV HO HatV]
    · isplitr; · iexact HIrcv
      isplitl [HcV]; · iexact HcV
      isplitl [HO]; · iexact HO
      isplitr; · rw [MayWait_zero]; iempintro
      iexact HatV
    iintro ⟨HO, HatV, -, Hpay⟩
    ihave Hrp := (Entails.of_eq (rest_recv m c)) $$ Hpay
    unfold recvPay
    icases Hrp with ⟨%fL, %hfL, HzL⟩
    -- the wait on the SEND cell: the scratch buffer back
    iapply (Rounds.wp_wait_rest_token 𝒱₀ ER (sched m) (c : Thread nD τ) none (κ := K (c, 1))
        (wpE_waitDma2_eq 𝒱₀ (c : Thread nD τ) none Set.univ) (Set.mem_univ _) () (O := 0)
        (W := insert (SemLoc.dma recvS.sem, ()) (insert (SemLoc.reg barS, ()) W)) (R := 0) (m := 0) (T := ∅)
        (by rw [Nat.zero_add, expect_send])) $$ [HcS HO HatS]
    · isplitr; · iexact HIsnd
      isplitl [HcS]; · iexact HcS
      isplitl [HO]; · iexact HO
      isplitr; · rw [MayWait_zero]; iempintro
      iexact HatS
    iintro ⟨HO, HatS, -, Hpay⟩
    ihave Hscr := (Entails.of_eq (rest_send m c)) $$ Hpay
    -- the two own cells close: their counters at zero are the device's again
    imod (Rounds.cell_close ER (sched m) (Set.mem_univ (K (c, 1))) (fun h => h) (R := 0 + 1) (duties_later m (sendCell c))) $$ [HatS] with HzS
    · isplitr; · iexact HIsnd
      iexact HatS
    imod (Rounds.cell_close ER (sched m) (Set.mem_univ (K (c, 2))) (fun h => h) (R := 0 + 1) (duties_later m (recvCell c))) $$ [HatV] with HzV
    · isplitr; · iexact HIrcv
      iexact HatV
    -- the two zones hold the result each on its part: together, the result buffer whole
    ihave HzL := (Entails.of_eq (land_congr m c fL hfL)) $$ HzL
    ihave Hown := (Entails.of_eq (own_congr m c g1)) $$ Hown
    ihave Hout := (out_join c (outAt m c)) $$ [HzL Hown]
    · isplitl [HzL]; · iexact HzL
      iexact Hown
    rw [wp_ret]; imodintro
    iapply Hk
    unfold bodyPost Φ₁ Dat.owesAt Pipeline.owesWithin
    rw [show (dats m 0 c).owed t₀.succ = 0 from rfl]
    isplitl [Hscr HzS HzV]
    · isplitl [Hscr]; · iexists (commval m c); unfold sendPay; iexact Hscr
      isplitl [HzS]; · iexact HzS
      iexact HzV
    isplitl [HO]
    · iexists (insert (SemLoc.dma sendS.sem, ()) (insert (SemLoc.dma recvS.sem, ()) (insert (SemLoc.reg barS, ()) W)))
      isplitr; · ipureintro; exact fun _ _ => Or.inl trivial
      iexact HO
    isplitl [Hx]
    · iexists _; isplitr; · (ipureintro; rfl)
      iexact Hx
    iexists _; isplitr; · (ipureintro; rfl)
    iexact Hout

/-- The library's body obligation on device `c`. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

end Body

set_option maxRecDepth 4000 in
theorem body_obligation (c : Dev nD) : BodyObligation (dats (F := F) m 0 c) (defs₀ (F := F)) 𝒱₀ () Set.univ := fun t => by
  rw [fin_N t]
  rw [Gen.bigSep_W0, Gen.bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Cert.KernelIdealProof

end
-- ==== Proof.KernelIdeal.Launch.lean ====
/-
  The launch: from every device's body to the run of the whole mesh.

  Every device starts with its three cells' round state, its positions, and the duty tokens of ITS OWN cells; the
  tokens are then dealt to the devices that pay them — a barrier cell's and a receive cell's token go to the owner's
  partner, a send cell's token stays.  Since the partner relation is an involution the deal is a permutation of the
  devices.  What each device owes at launch (its partner's receive credit and one unit on its partner's barrier
  cell) is, summed over the devices, exactly each cell's expected credit, which is what the owner waits with.
-/
import proofs.«900336_g7700000000000337_dist_a2a_v7x_xyz2x2x2_z_m256_n256_bf16_1_alg».proof.Proof.KernelIdeal.Body

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def protoCells : Finset (GSem nD τ sig) := Finset.univ.map ⟨kcell, kcell_injective⟩

/-- The duty tokens as minted: one per cell. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg (fun x : GSem nD τ sig × ℕ × Unit => x.1) h)
def protoToks : Finset (GSem nD τ sig × ℕ × Unit) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (sched m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 3 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin3]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (sched m) (K ck) (kcell ck) : sProp 𝕄)) ⊢ cellInv ER (sched m) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (pt c)) 0 () ∗ dutyTok ER (recvCell (pt c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtB, HtV, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (pt c, 0)); iexact HI
    iapply (inv_at m K (pt c, 2)); iexact HI
  isplitl [HaB]; · iexact HaB
  isplitl [HaS]; · iexact HaS
  isplitl [HaV]; · iexact HaV
  isplitr; · iapply (reached_at (F := F) (pt c, 0)); iexact HR
  isplitr; · iapply (reached_at (F := F) (pt c, 2)); iexact HR
  isplitr; · iapply (reached_at (F := F) (c, 1)); iexact HR
  isplitr; · iapply (reached_at (F := F) (c, 2)); iexact HR
  isplitl [HtB]; · iexact HtB
  isplitl [HtV]; · iexact HtV
  iexact HtS

/-- The tokens dealt to the payers: a barrier cell's and a receive cell's to the owner's partner. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (sched m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What device `d` owes device `c`'s barrier cell: a unit if it is `c`'s partner. -/
theorem owed_bar (d c : Dev nD) : O₀ d (barCell c) () = if d = pt c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = pt c
  · subst h; rw [pt_pt, if_pos ⟨rfl, rfl⟩, if_pos rfl]
  · rw [if_neg (fun ⟨h1, _⟩ => h (by rw [← pt_pt d]; exact congrArg pt (bar_eq_iff.mp h1).symm)), if_neg h]

theorem owed_recv (d c : Dev nD) : O₀ d (recvCell c) () = if d = pt c then N else 0 := by
  unfold O₀
  rw [Pi.add_apply, Finsupp.add_apply, tallyAt_apply,
    tallyAt_ne_cell (fun h => recv_ne_bar (congrArg Prod.snd h)), Finsupp.zero_apply, Nat.add_zero]
  by_cases h : d = pt c
  · subst h; rw [pt_pt, if_pos ⟨rfl, rfl⟩, if_pos rfl]
  · rw [if_neg (fun ⟨h1, _⟩ => h (by rw [← pt_pt d]; exact congrArg pt (recv_eq_iff.mp h1).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (pt c) fun _ => 1, if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (pt c) fun _ => N,
    if_pos (Finset.mem_univ _)]

theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; rw [commPts_eq]; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨⟨%f, Hr⟩, HzS, HzV⟩
  isplitr; · iempintro
  isplitl [HzS HzV]
  · isplitl [HzS] <;> iassumption
  iexists f; rw [← commPts_eq]; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of eight devices, for any float values, from any memory with zero counters: every weakly fair
    execution of @main — the eight kernels shaking hands pairwise on the runtime's barrier semaphore, then copying
    across each pair — terminates, and every final state has each device's windowed arrays at the proof data's. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m c (0 : Fin 2) = m (win0_0.arr.view.loc (c : Thread nD τ)) :=
  (dats (F := F) m 0 c).arrAt_in (0 : Fin 2) rfl _

/-- The frame: the run with the values dropped — the input array is only read. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c (0 : Fin 2)).trans (finalA_x m c)) (run_main m ρ)

end Cert.KernelIdealProof

end
-- ==== Proof.KernelIdeal.Value.lean ====
/-
  What each device ends holding, against the whole array.

  At the exact reading a change of float format is the identity, so everything here is data movement.  With `X` the
  whole 512 x 512 array and z the low bit of a device `s`, the device's block is rows [256 z, 256 z + 256) of `X`.
  Its scratch buffer then holds, at (p, q), `X` at (256 z + p, 256 (1 - z) + q) — the columns its partner keeps —
  and what it stores in its own zone holds `X` at (256 z + p, 256 z + q).  Device `c`'s result must be columns
  [256 z, 256 z + 256) of `X` with z now `c`'s bit: at row 256 z' + p, column q, that is `X` at (256 z' + p, 256 z + q).
  On its own zone (z' = z) this is what it stored; on its partner's zone (z' = 1 - z) it is the partner's scratch buffer.
-/
import proofs.«900336_g7700000000000337_dist_a2a_v7x_xyz2x2x2_z_m256_n256_bf16_1_alg».proof.Proof.KernelIdeal.Body
import Idealize.ShloMosaic.Lib.Layout
import Idealize.ShloMosaic.Lib.ValueIdx

noncomputable section

namespace Cert.KernelIdealProof.Value

open Cert.KernelIdeal Cert.KernelIdeal.Gen Cert.KernelIdealProof

open Idealize.ShloMosaic Idealize.ShloMosaic.Layout Idealize.ShloMosaic.ValueIdx
open Idealize.ShloMosaic.TcCoe
open Idealize.SL Idealize.SL.Sem

abbrev S512x512 : Shape := ⟨2, ![512, 512]⟩

variable {α : Type}

/-! ## Where a block's element is in the whole array -/

theorem lin2 : ∀ c : Fin 8, meshLin [2, 2, 2] c.val [2] = c.val % 2 := by decide
theorem lin0 (c : Fin 8) : meshLin [2, 2, 2] c.val [] = 0 := rfl

/-- The result block of device `c`: columns [256 z, 256 z + 256) of the whole array. -/
theorem tgt_at (c : Fin 8) (V : S512x512.Idx → α) (i : S512x256.Idx) (j : S512x512.Idx)
    (h0 : (j 0).val = (i 0).val) (h1 : (j 1).val = 256 * (c.val % 2) + (i 1).val) :
    (blockN S512x256 S512x512 (meshBlock [2, 2, 2] ![[], [2]] c) V) i = V j := by
  rw [blockN_apply]
  refine congrArg V (funext fun b => Fin.ext ?_)
  rw [TilesN.idx_val]
  match b with
  | ⟨0, _⟩ => show meshLin [2, 2, 2] c.val [] * 512 + (i 0).val = (j 0).val; rw [lin0, h0]; omega
  | ⟨1, _⟩ => show meshLin [2, 2, 2] c.val [2] * 256 + (i 1).val = (j 1).val; rw [lin2, h1]; omega

/-- The input block of device `s`: rows [256 z, 256 z + 256) of the whole array. -/
theorem src_at (s : Fin 8) (V : S512x512.Idx → α) (i : S256x512.Idx) (j : S512x512.Idx)
    (h0 : (j 0).val = 256 * (s.val % 2) + (i 0).val) (h1 : (j 1).val = (i 1).val) :
    (blockN S256x512 S512x512 (meshBlock [2, 2, 2] ![[2], []] s) V) i = V j := by
  rw [blockN_apply]
  refine congrArg V (funext fun b => Fin.ext ?_)
  rw [TilesN.idx_val]
  match b with
  | ⟨0, _⟩ => show meshLin [2, 2, 2] s.val [2] * 256 + (i 0).val = (j 0).val; rw [lin2, h0]; omega
  | ⟨1, _⟩ => show meshLin [2, 2, 2] s.val [] * 512 + (i 1).val = (j 1).val; rw [lin0, h1]; omega

/-! ## The kernel's pieces at the exact reading -/

section Exact

variable (m : (ℓ : Loc nD τ sig) → Buf (Elt Ideal) ℓ) (X : S512x512.Idx → EReal)

/-- Every device's input buffer holds its block of the whole array `X`. -/
def Holds : Prop := ∀ d : Dev nD,
  (m ((d : Thread nD τ).loc main_arg0) : S256x512.Idx → EReal) = blockN S256x512 S512x512 (meshBlock [2, 2, 2] ![[2], []] d) X

/-- Rounding and recasting to the same shape change nothing. -/
theorem pay1_id (v : Vec Ideal S256x256 .f32) : (k0_pay1 (F := Ideal) v : S256x256.Idx → EReal) = v := by
  unfold k0_pay1; simp only [shapeCast_self]; rfl
theorem pay2_id (v : Vec Ideal S256x256 .f32) : (k0_pay2 (F := Ideal) v : S256x256.Idx → EReal) = v := by
  unfold k0_pay2; simp only [shapeCast_self]; rfl
theorem pay3_id (v : Vec Ideal S256x256 .f32) : (k0_pay3 (F := Ideal) v : S256x256.Idx → EReal) = v := by
  unfold k0_pay3; simp only [shapeCast_self]; rfl
theorem pay4_id (v : Vec Ideal S256x256 .f32) : (k0_pay4 (F := Ideal) v : S256x256.Idx → EReal) = v := by
  unfold k0_pay4; simp only [shapeCast_self]; rfl

/-- The staged block is the device's input buffer: the window is the whole array. -/
theorem xstg_eq (s : Dev nD) : (xstg m s : S256x512.Idx → EReal) = m ((s : Thread nD τ).loc main_arg0) := by
  unfold xstg Gen.iblk
  exact Memref.read_access_unit_zero (Elt Ideal) main_arg0 (funext fun a => by fin_cases a <;> rfl) _ _

variable {m X}

/-- The staged block of device `s` at (r, k) is `X` at (256 z + r, k). -/
theorem xstg_at (hm : Holds m X) (s : Dev nD) (i : S256x512.Idx) (j : S512x512.Idx)
    (h0 : (j 0).val = 256 * (s.val % 2) + (i 0).val) (h1 : (j 1).val = (i 1).val) : (xstg m s : S256x512.Idx → EReal) i = X j := by
  rw [xstg_eq, hm s]; exact src_at s X i j h0 h1

/-- The left half of the block at (p, q) is the block at (p, q); the right half, at (p, 256 + q). -/
theorem xL_at (hm : Holds m X) (s : Dev nD) (x : S256x256.Idx) (j : S512x512.Idx)
    (h0 : (j 0).val = 256 * (s.val % 2) + (x 0).val) (h1 : (j 1).val = (x 1).val) : (xL m s : S256x256.Idx → EReal) x = X j := by
  show (xstg m s : S256x512.Idx → EReal) (rL.emb x) = X j
  refine xstg_at hm s _ j ?_ ?_
  · show (j 0).val = 256 * (s.val % 2) + (0 + 1 * (x 0).val); omega
  · show (j 1).val = 0 + 1 * (x 1).val; omega
theorem xR_at (hm : Holds m X) (s : Dev nD) (x : S256x256.Idx) (j : S512x512.Idx)
    (h0 : (j 0).val = 256 * (s.val % 2) + (x 0).val) (h1 : (j 1).val = 256 + (x 1).val) : (xR m s : S256x256.Idx → EReal) x = X j := by
  show (xstg m s : S256x512.Idx → EReal) (rR.emb x) = X j
  refine xstg_at hm s _ j ?_ ?_
  · show (j 0).val = 256 * (s.val % 2) + (0 + 1 * (x 0).val); omega
  · show (j 1).val = 256 + 1 * (x 1).val; omega

/-- The scratch buffer of device `s` at (p, q) is `X` at (256 z + p, 256 (1 - z) + q): the columns its partner keeps. -/
theorem commval_at (hm : Holds m X) (s : Dev nD) (x : S256x256.Idx) (j : S512x512.Idx)
    (h0 : (j 0).val = 256 * (s.val % 2) + (x 0).val) (h1 : (j 1).val = 256 * (1 - s.val % 2) + (x 1).val) :
    (commval m s : S256x256.Idx → EReal) x = X j := by
  rcases Nat.mod_two_eq_zero_or_one s.val with hz | hz
  · rw [commval_even m s hz, pay1_id]; exact xR_at hm s x j h0 (by rw [hz] at h1; omega)
  · rw [commval_odd m s hz, pay3_id]; exact xL_at hm s x j h0 (by rw [hz] at h1; omega)

/-- What device `s` stores in its own zone, at (p, q), is `X` at (256 z + p, 256 z + q): the columns it keeps. -/
theorem ownval_at (hm : Holds m X) (s : Dev nD) (x : S256x256.Idx) (j : S512x512.Idx)
    (h0 : (j 0).val = 256 * (s.val % 2) + (x 0).val) (h1 : (j 1).val = 256 * (s.val % 2) + (x 1).val) :
    (ownval m s : S256x256.Idx → EReal) x = X j := by
  rcases Nat.mod_two_eq_zero_or_one s.val with hz | hz
  · rw [ownval_even m s hz, pay2_id]; exact xL_at hm s x j h0 (by rw [hz] at h1; omega)
  · rw [ownval_odd m s hz, pay4_id]; exact xR_at hm s x j h0 (by rw [hz] at h1; omega)

variable (X) in
/-- Device `c`'s block of the result, at the element (p, q) of device `s`'s zone, is `X` at (256 z_s + p, 256 z_c + q). -/
theorem tgt_zone (c s : Dev nD) (x : S256x256.Idx) (j : S512x512.Idx)
    (h0 : (j 0).val = 256 * (s.val % 2) + (x 0).val) (h1 : (j 1).val = 256 * (c.val % 2) + (x 1).val) :
    (blockN S512x256 S512x512 (meshBlock [2, 2, 2] ![[], [2]] c) X) ((zone s).emb x) = X j := by
  have e0 : k0_off1 s 0 = 256 * (s.val % 2) := congrFun (k0_off1_eq s) 0
  have e1 : k0_off1 s 1 = 0 := congrFun (k0_off1_eq s) 1
  refine tgt_at c X _ j ?_ ?_
  · show (j 0).val = k0_off1 s 0 + 1 * (x 0).val; rw [e0, h0]; omega
  · show (j 1).val = 256 * (c.val % 2) + (k0_off1 s 1 + 1 * (x 1).val); rw [e1, h1]; omega

/-- Read through the own zone, the result is what the device stored there. -/
theorem read_outAt_own (c : Dev nD) : (zM c).view.read (Elt Ideal) (outAt m c) = ownval m c := by
  unfold outAt
  exact (View.read_slice_write_slice_of_disjoint (v := (oM : Memref sig .tc .vmem S512x256 .bf16).view) (zone c) (zone (pt c)) _ _ _
    (zones_disjoint c)).trans (View.read_write_univ _ _)

/-- The index of `X` at row `a`, column `b`. -/
abbrev at2 (a b : Nat) (ha : a < 512) (hb : b < 512) : S512x512.Idx := ix2 ⟨a, ha⟩ ⟨b, hb⟩

/-- THE VALUE: device `c`'s result buffer ends holding its block — columns [256 z, 256 z + 256) — of the whole array. -/
theorem out_value (hm : Holds m X) (c : Dev nD) :
    (outAt m c : S512x256.Idx → EReal) = blockN S512x256 S512x512 (meshBlock [2, 2, 2] ![[], [2]] c) X := by
  have hb : (pt c).val % 2 = 1 - c.val % 2 := pt_bit c
  have hc : c.val % 2 < 2 := Nat.mod_lt _ (by decide)
  -- through the partner's zone both read as the partner's scratch buffer
  have hP : (zM (pt c)).view.read (Elt Ideal) (outAt m c)
      = (zM (pt c)).view.read (Elt Ideal) (blockN S512x256 S512x512 (meshBlock [2, 2, 2] ![[], [2]] c) X) := by
    rw [read_outAt_pt]; funext x
    have hx0 : (x 0).val < 256 := (x 0).isLt
    have hx1 : (x 1).val < 256 := (x 1).isLt
    show (commval m (pt c) : S256x256.Idx → EReal) x = (blockN S512x256 S512x512 (meshBlock [2, 2, 2] ![[], [2]] c) X) ((zone (pt c)).emb x)
    rw [tgt_zone X c (pt c) x (at2 (256 * ((pt c).val % 2) + (x 0).val) (256 * (c.val % 2) + (x 1).val) (by omega) (by omega)) rfl rfl]
    exact commval_at hm (pt c) x _ rfl (by show 256 * (c.val % 2) + (x 1).val = 256 * (1 - (pt c).val % 2) + (x 1).val; omega)
  -- through the own zone both read as what the device stored
  have hO : (zM c).view.read (Elt Ideal) (outAt m c)
      = (zM c).view.read (Elt Ideal) (blockN S512x256 S512x512 (meshBlock [2, 2, 2] ![[], [2]] c) X) := by
    rw [read_outAt_own]; funext x
    have hx0 : (x 0).val < 256 := (x 0).isLt
    have hx1 : (x 1).val < 256 := (x 1).isLt
    show (ownval m c : S256x256.Idx → EReal) x = (blockN S512x256 S512x512 (meshBlock [2, 2, 2] ![[], [2]] c) X) ((zone c).emb x)
    rw [tgt_zone X c c x (at2 (256 * (c.val % 2) + (x 0).val) (256 * (c.val % 2) + (x 1).val) (by omega) (by omega)) rfl rfl]
    exact ownval_at hm c x _ rfl rfl
  funext i
  rcases Classical.em (i ∈ (zM (pt c)).view.set) with hi | hi
  · exact Cert.LibView.eqOn_of_read_eq (zM (pt c)).view hP i hi
  · refine Cert.LibView.eqOn_of_read_eq (zM c).view hO i ?_
    rw [zM_set] at hi ⊢
    rw [← zone_compl c]
    exact Finset.mem_sdiff.mpr ⟨Finset.mem_univ _, hi⟩

end Exact

end Cert.KernelIdealProof.Value

end
-- ==== Proof.RefSide.lean ====
/-
  The reference, run on one device over the whole array: it returns its argument, rounded to the result's type,
  and at the exact reading a rounding changes no value.
-/
import proofs.«900336_g7700000000000337_dist_a2a_v7x_xyz2x2x2_z_m256_n256_bf16_1_alg».proof.Proof.Gen.ReferenceIdeal.Run
import proofs.«900336_g7700000000000337_dist_a2a_v7x_xyz2x2x2_z_m256_n256_bf16_1_alg».proof.Proof.Gen.ReferenceIdeal.Read
-- ==== Proof.Claims.lean ====
/-
  The five claims, assembled.

  Each kernel program's frame is its run with the values dropped: the input array is a window the pipeline only
  reads.  The reference's frame is its generated run with the result dropped.  Nothing was rewritten by the
  idealization, so there is nothing to preserve.  For the values: run from memories in which every device holds its
  block of the whole array, device `c` ends holding, in its result buffer, columns [256 z, 256 z + 256) of the whole
  array, which is its block of what the reference returns (the array itself, rounding being the identity at the
  exact reading).
-/
import proofs.«900336_g7700000000000337_dist_a2a_v7x_xyz2x2x2_z_m256_n256_bf16_1_alg».proof.Defs
import proofs.«900336_g7700000000000337_dist_a2a_v7x_xyz2x2x2_z_m256_n256_bf16_1_alg».proof.Proof.Kernel.Launch
import proofs.«900336_g7700000000000337_dist_a2a_v7x_xyz2x2x2_z_m256_n256_bf16_1_alg».proof.Proof.KernelIdeal.Launch
import proofs.«900336_g7700000000000337_dist_a2a_v7x_xyz2x2x2_z_m256_n256_bf16_1_alg».proof.Proof.KernelIdeal.Value
import proofs.«900336_g7700000000000337_dist_a2a_v7x_xyz2x2x2_z_m256_n256_bf16_1_alg».proof.Proof.RefSide
import proofs.«900336_g7700000000000337_dist_a2a_v7x_xyz2x2x2_z_m256_n256_bf16_1_alg».proof.Proof.Gen.Pre_finite_inputs_Kernel
import proofs.«900336_g7700000000000337_dist_a2a_v7x_xyz2x2x2_z_m256_n256_bf16_1_alg».proof.Proof.Gen.Pre_finite_inputs_ReferenceIdeal

noncomputable section

namespace Cert.Proof.Claims

open Idealize.ShloMosaic Idealize.ShloMosaic.TcCoe Idealize.SL.Sem
open Idealize.ShloMosaic.Pipeline (Dat)

theorem frame_k : Cert.frame_Kernel := fun m ρ _ => Cert.KernelProof.frame m ρ
theorem frame_ki : Cert.frame_KernelIdeal := fun m ρ _ => Cert.KernelIdealProof.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Gen Cert.KernelIdealProof in
/-- The result array after the run is what the body left in the result's staging buffer: the window is the whole
    array, written back once. -/
theorem finalA_out {F : FTy → Type} [FloatOps F] (m : (ℓ : Loc nD τ sig) → Buf (Elt F) ℓ) (c : Dev nD) :
    finalA m c (1 : Fin 2) = outAt m c := by
  unfold finalA
  show (dats m 0 c).arrAt (1 : Fin 2) (t₀.val + 1) = _
  rw [Dat.arrAt_succ, if_pos (Gen.flush0_1 t₀)]
  exact Memref.write_access_unit_zero_univ (Elt F) main_v1 (funext fun a => by fin_cases a <;> rfl) _ _ _

open Cert.KernelIdeal Cert.KernelIdeal.Gen Cert.KernelIdealProof Cert.KernelIdealProof.Value in
/-- Run from memories in which every device holds its block of the whole array: the reference returns the array, and
    device `c` ends holding its block of it. -/
theorem algebraic : Cert.algebraic_KernelIdeal_ReferenceIdeal := by
  intro m ρ m' ρ' _ hagree
  have hm : Holds m (m' (((0 : Dev Cert.ReferenceIdeal.nD).tc : Thread Cert.ReferenceIdeal.nD Cert.ReferenceIdeal.τ).loc Cert.ReferenceIdeal.main_arg0)) := hagree
  refine ⟨Cert.ReferenceIdeal.Read.val_main_v0 (F := Ideal)
    (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun r h c => ⟨?_, (h c (0 : Fin 2)).trans (finalA_x m c)⟩) (run_main m ρ)
    exact ((h c (1 : Fin 2)).trans (finalA_out m c)).trans (out_value hm c)
  · exact (θ_run Cert.ReferenceIdeal.defs _ _).mono (fun r h => ⟨(h 0).1, (h 0).2⟩) (Cert.ReferenceIdeal.Value.run (F := Ideal) m' ρ')

end Cert.Proof.Claims

end
-- ==== Proof.lean ====
/-
  An all-to-all along one axis of a 2 x 2 x 2 mesh, against the identity.

  The whole array is 512 x 512.  Device (x, y, z) starts with rows [256 z, 256 z + 256) of it and must end with columns
  [256 z, 256 z + 256) of it, rounded to the result's format; the reference, on one device over the whole array,
  returns the array rounded.  Each device keeps the quarter of the array that is in both its rows and its columns,
  and the two devices of a pair (same x, y, the two values of z) exchange the other quarters: each rounds the
  quarter the other needs into a scratch buffer and copies it into the other's result buffer, after a handshake on
  the barrier semaphore that tells it the other has entered the kernel, and waits for the other's copy to have
  landed and for its own to have been read before it leaves.  At the exact reading rounding is the identity, so the
  result is the array's block and nothing is computed.

  The witnesses of the programs' stated side conditions are the generated ones.  The kernel's run — protocol, body,
  launch — is proved once, for any float instance, and read at the word-level instance and at the exact one for the
  two frames; the values are read off the same run at the exact instance.
-/
import proofs.«900336_g7700000000000337_dist_a2a_v7x_xyz2x2x2_z_m256_n256_bf16_1_alg».proof.Defs
import proofs.«900336_g7700000000000337_dist_a2a_v7x_xyz2x2x2_z_m256_n256_bf16_1_alg».proof.Proof.Gen.Kernel
import proofs.«900336_g7700000000000337_dist_a2a_v7x_xyz2x2x2_z_m256_n256_bf16_1_alg».proof.Proof.Gen.KernelIdeal
import proofs.«900336_g7700000000000337_dist_a2a_v7x_xyz2x2x2_z_m256_n256_bf16_1_alg».proof.Proof.Gen.ReferenceIdeal
import proofs.«900336_g7700000000000337_dist_a2a_v7x_xyz2x2x2_z_m256_n256_bf16_1_alg».proof.Proof.Gen.Pre_finite_inputs_Kernel
import proofs.«900336_g7700000000000337_dist_a2a_v7x_xyz2x2x2_z_m256_n256_bf16_1_alg».proof.Proof.Gen.Pre_finite_inputs_ReferenceIdeal
import proofs.«900336_g7700000000000337_dist_a2a_v7x_xyz2x2x2_z_m256_n256_bf16_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Claims.frame_k, Claims.frame_ki, Claims.frame_ri, Claims.preserves, Claims.algebraic⟩

end Cert.Proof

end
